-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S512x8 : Shape := ⟨2, ![512, 8]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S136x256 : Shape := ⟨2, ![136, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S136x256 : S_.BroadcastsInDim S136x256 (![] : Fin 0 → Fin S136x256.rank)
  reducesTo_S136x256_S_d0_1 : S136x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128 .f32) (main_arg15 : FVec F S128x1 .f32) (main_arg16 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg15
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg10 : FVec F S128 .f32) (main_arg11 : FVec F S136x256 .f32) (main_arg12 : FVec F S256 .f32) (main_arg13 : FVec F S256x128 .f32) (main_arg14 : FVec F S128 .f32) (main_arg15 : FVec F S128x1 .f32) (main_arg16 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S136x256 .f32 := Host.absf main_arg11
  let main_cst_14 : FVec F S_ .f32 := constant S_ .f32 0x7F800000#32
  let main_v40 : FVec F S136x256 .f32 := broadcastInDim S136x256 ![] bcast_S_S136x256 main_cst_14
  let main_v41 : IVec S136x256 1 := cmpf .olt main_v39 main_v40
  let main_c_15 : IVec S_ 1 := constantI S_ 1 1#1
  let main_v42 : IVec S_ 1 := (fun x v => Host.reduce IntOp.andi x v reducesTo_S136x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg13
  let main_cst_18 : FVec F S_ .f32 := constant S_ .f32 0x7F800000#32
  let main_v50 : FVec F S256x128 .f32 := broadcastInDim S256x128 ![] bcast_S_S256x128 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S136x256 .f32) (main_arg12 : FVec F S256 .f32) (main_arg13 : FVec F S256x128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S100000x128 .f32) (main_arg1 : FVec F S512x8 .f32) (main_arg2 : IVec S1600000 32) (main_arg3 : IVec S1600000 32) (main_arg4 : IVec S100000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S136x256 .f32) (main_arg12 : FVec F S256 .f32) (main_arg13 : FVec F S256x128 .f32) (main_arg14 : FVec F S128 .f32) (main_arg15 : FVec F S128x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000x128 : Shape := ⟨2, ![100000, 128]⟩
abbrev S512x8 : Shape := ⟨2, ![512, 8]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S136x256 : Shape := ⟨2, ![136, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x136 : Shape := ⟨2, ![512, 136]⟩
abbrev S512x256 : Shape := ⟨2, ![512, 256]⟩
abbrev S1x256 : Shape := ⟨2, ![1, 256]⟩
abbrev S1x1 : Shape := ⟨2, ![1, 1]⟩

abbrev nBuf : Space → Nat
  | .hbm => 121
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S512x8, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S136x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S512x128, .f32⟩
  | .hbm, ⟨103, _⟩ => ⟨S100000x1, .i32⟩
  | .hbm, ⟨104, _⟩ => ⟨S512x128, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S512, .f32⟩
  | .hbm, ⟨109, _⟩ => ⟨S100000x1, .i32⟩
  | .hbm, ⟨110, _⟩ => ⟨S512, .f32⟩
  | .hbm, ⟨111, _⟩ => ⟨S_, .f32⟩
  | .hbm, ⟨112, _⟩ => ⟨S_, .f32⟩
  | .hbm, ⟨113, _⟩ => ⟨S512, .f32⟩
  | .hbm, ⟨114, _⟩ => ⟨S512, .f32⟩
  | .hbm, ⟨115, _⟩ => ⟨S512x1, .f32⟩
  | .hbm, ⟨116, _⟩ => ⟨S512x128, .f32⟩
  | .hbm, ⟨117, _⟩ => ⟨S512x128, .f32⟩
  | .hbm, ⟨118, _⟩ => ⟨S512x136, .f32⟩
  | .hbm, ⟨119, _⟩ => ⟨S512x1, .f32⟩
  | .hbm, ⟨120, _⟩ => ⟨S512, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S512x136, .f32⟩
  | .local _ .vmem, ⟨19, _⟩ => ⟨S136x256, .f32⟩
  | .local _ .vmem, ⟨20, _⟩ => ⟨S256, .f32⟩
  | .local _ .vmem, ⟨21, _⟩ => ⟨S256x128, .f32⟩
  | .local _ .vmem, ⟨22, _⟩ => ⟨S128, .f32⟩
  | .local _ .vmem, ⟨23, _⟩ => ⟨S128x1, .f32⟩
  | .local _ .vmem, ⟨24, _⟩ => ⟨S1, .f32⟩
  | .local _ .vmem, ⟨25, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_v9 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v10 : Ref sig .tc := ⟨.hbm, 37, rfl⟩
abbrev main_cst_5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_6 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_c_9 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_10 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_c_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_13 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_cst_16 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_17 : Ref sig .tc := ⟨.hbm, 111, rfl⟩
abbrev main_call2_v0 : Ref sig .tc := ⟨.hbm, 112, rfl⟩
abbrev main_call2_v1 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x136 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S136x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x8_S512x136_d1 : Shape.Concatenates [S512x128, S512x8] S512x136 1
  inb_S512x136_S512x136_0_0 : ∀ a, (![0, 0] : Fin 2 → Nat) a + S512x136.size a ≤ S512x136.size a
  h_S512x136 : 0 < S512x136.numel
  shapeCasts_S512x136_S512x136 : S512x136.ShapeCasts S512x136
  inb_S136x256_S136x256_0_0 : ∀ a, (![0, 0] : Fin 2 → Nat) a + S136x256.size a ≤ S136x256.size a
  h_S136x256 : 0 < S136x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x136_S136x256_S512x256_1_0_0_1_n_n_wf : DotDims.WF S512x136 S136x256 S512x256 [1] [0] [0] [1] [] []
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x136.size a ≤ S512x136.size a
  hwx3_0 : ∀ i : grid3.Coords, EltTy.bits .f32 = 32 ∨ (Rect.block (s := S512x136) S512x136.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S136x256.size a ≤ S136x256.size a
  hwx3_1 : ∀ i : grid3.Coords, EltTy.bits .f32 = 32 ∨ (Rect.block (s := S136x256) S136x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S512x1.size a
  hwx3_7 : ∀ i : grid3.Coords, EltTy.bits .f32 = 32 ∨ (Rect.block (s := S512x1) S512x1.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x136_S136x256_S512x256_1_0_0_1_n_n : DotDims S512x136 S136x256 S512x256 where
  lhsContracting := [1]
  rhsContracting := [0]
  lhsNonContracting := [0]
  rhsNonContracting := [1]
  lhsBatch := []
  rhsBatch := []
  wf := dot_S512x136_S136x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S512x136.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S136x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v76) S512x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S512x8 : Shape := ⟨2, ![512, 8]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S136x256 : Shape := ⟨2, ![136, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x136 : Shape := ⟨2, ![512, 136]⟩
abbrev S512x256 : Shape := ⟨2, ![512, 256]⟩
abbrev S1x256 : Shape := ⟨2, ![1, 256]⟩
abbrev S1x1 : Shape := ⟨2, ![1, 1]⟩

abbrev nBuf : Space → Nat
  | .hbm => 217
  | .vmem => 0
  | .smem => 0
  | _ => 0

abbrev hbmTy0_0 (i : Nat) : BufTy := match i % 128 with
  | 0 => ⟨S100000x128, .f32⟩
  | 1 => ⟨S512x8, .f32⟩
  | 2 => ⟨S1600000, .i32⟩
  | 3 => ⟨S1600000, .i32⟩
  | 4 => ⟨S100000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S136x256, .f32⟩
  | 12 => ⟨S256, .f32⟩
  | 13 => ⟨S256x128, .f32⟩
  | 14 => ⟨S128, .f32⟩
  | 15 => ⟨S128x1, .f32⟩
  | 16 => ⟨S1, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S_, .f32⟩
  | 66 => ⟨S100000x128, .f32⟩
  | 67 => ⟨S100000x128, .i1⟩
  | 68 => ⟨S_, .f32⟩
  | 69 => ⟨S100000x128, .f32⟩
  | 70 => ⟨S100000x128, .i1⟩
  | 71 => ⟨S_, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x1, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x1, .f32⟩
  | 100 => ⟨S100000x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S_, .f32⟩
  | 108 => ⟨S100000x128, .f32⟩
  | 109 => ⟨S100000x128, .i1⟩
  | 110 => ⟨S_, .f32⟩
  | 111 => ⟨S100000x128, .f32⟩
  | 112 => ⟨S100000x128, .i1⟩
  | 113 => ⟨S_, .f32⟩
  | 114 => ⟨S_, .f32⟩
  | 115 => ⟨S100000x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S512x128, .f32⟩
  | 22 => ⟨S100000x1, .i32⟩
  | 23 => ⟨S512x128, .f32⟩
  | 24 => ⟨S_, .f32⟩
  | 25 => ⟨S100000, .f32⟩
  | 26 => ⟨S_, .f32⟩
  | 27 => ⟨S512, .f32⟩
  | 28 => ⟨S100000x1, .i32⟩
  | 29 => ⟨S512, .f32⟩
  | 30 => ⟨S_, .f32⟩
  | 31 => ⟨S_, .f32⟩
  | 32 => ⟨S512, .f32⟩
  | 33 => ⟨S512, .f32⟩
  | 34 => ⟨S512x1, .f32⟩
  | 35 => ⟨S512x128, .f32⟩
  | 36 => ⟨S512x128, .f32⟩
  | 37 => ⟨S512x136, .f32⟩
  | 38 => ⟨S512x256, .f32⟩
  | 39 => ⟨S1x256, .f32⟩
  | 40 => ⟨S512x256, .f32⟩
  | 41 => ⟨S512x256, .f32⟩
  | 42 => ⟨S_, .f32⟩
  | 43 => ⟨S_, .f32⟩
  | 44 => ⟨S512x256, .f32⟩
  | 45 => ⟨S512x256, .i1⟩
  | 46 => ⟨S_, .f32⟩
  | 47 => ⟨S512x256, .f32⟩
  | 48 => ⟨S512x256, .i1⟩
  | 49 => ⟨S_, .f32⟩
  | 50 => ⟨S_, .f32⟩
  | 51 => ⟨S512x256, .f32⟩
  | 52 => ⟨S512x256, .f32⟩
  | 53 => ⟨S512x256, .f32⟩
  | 54 => ⟨S_, .f32⟩
  | 55 => ⟨S512x256, .f32⟩
  | 56 => ⟨S512x256, .f32⟩
  | 57 => ⟨S512x256, .f32⟩
  | 58 => ⟨S_, .f32⟩
  | 59 => ⟨S512x256, .f32⟩
  | 60 => ⟨S512x256, .f32⟩
  | 61 => ⟨S512x128, .f32⟩
  | 62 => ⟨S1x128, .f32⟩
  | 63 => ⟨S512x128, .f32⟩
  | 64 => ⟨S512x128, .f32⟩
  | 65 => ⟨S_, .f32⟩
  | 66 => ⟨S_, .f32⟩
  | 67 => ⟨S512x128, .f32⟩
  | 68 => ⟨S512x128, .i1⟩
  | 69 => ⟨S_, .f32⟩
  | 70 => ⟨S512x128, .f32⟩
  | 71 => ⟨S512x128, .i1⟩
  | 72 => ⟨S_, .f32⟩
  | 73 => ⟨S_, .f32⟩
  | 74 => ⟨S512x128, .f32⟩
  | 75 => ⟨S512x128, .f32⟩
  | 76 => ⟨S512x128, .f32⟩
  | 77 => ⟨S_, .f32⟩
  | 78 => ⟨S512x128, .f32⟩
  | 79 => ⟨S512x128, .f32⟩
  | 80 => ⟨S512x128, .f32⟩
  | 81 => ⟨S_, .f32⟩
  | 82 => ⟨S512x128, .f32⟩
  | 83 => ⟨S512x128, .f32⟩
  | 84 => ⟨S512x1, .f32⟩
  | 85 => ⟨S1x1, .f32⟩
  | 86 => ⟨S512x1, .f32⟩
  | 87 => ⟨S512x1, .f32⟩
  | 88 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_cst_3 : Ref sig .tc := ⟨.hbm, 31, rfl⟩
abbrev main_v8 : Ref sig .tc := ⟨.hbm, 32, rfl⟩
abbrev main_v9 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v10 : Ref sig .tc := ⟨.hbm, 37, rfl⟩
abbrev main_cst_5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_6 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_cst : Ref sig .tc := ⟨.hbm, 64, rfl⟩
abbrev main_call2_call0_cst : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_call0_cst_0 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_cst_1 : Ref sig .tc := ⟨.hbm, 71, rfl⟩
abbrev main_call2_call0_call0_v0 : Ref sig .tc := ⟨.hbm, 72, rfl⟩
abbrev main_call2_call0_call0_v1 : Ref sig .tc := ⟨.hbm, 73, rfl⟩
abbrev main_call2_call0_v4 : Ref sig .tc := ⟨.hbm, 74, rfl⟩
abbrev main_call2_call0_v5 : Ref sig .tc := ⟨.hbm, 75, rfl⟩
abbrev main_call2_call0_v6 : Ref sig .tc := ⟨.hbm, 76, rfl⟩
abbrev main_call2_call0_v7 : Ref sig .tc := ⟨.hbm, 77, rfl⟩
abbrev main_call2_call0_v8 : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_8 : Ref sig .tc := ⟨.hbm, 86, rfl⟩
abbrev main_v37 : Ref sig .tc := ⟨.hbm, 87, rfl⟩
abbrev main_v38 : Ref sig .tc := ⟨.hbm, 88, rfl⟩
abbrev main_c_9 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_10 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_call3_cst : Ref sig .tc := ⟨.hbm, 106, rfl⟩
abbrev main_call3_call0_cst : Ref sig .tc := ⟨.hbm, 107, rfl⟩
abbrev main_call3_call0_v0 : Ref sig .tc := ⟨.hbm, 108, rfl⟩
abbrev main_call3_call0_v1 : Ref sig .tc := ⟨.hbm, 109, rfl⟩
abbrev main_call3_call0_cst_0 : Ref sig .tc := ⟨.hbm, 110, rfl⟩
abbrev main_call3_call0_v2 : Ref sig .tc := ⟨.hbm, 111, rfl⟩
abbrev main_call3_call0_v3 : Ref sig .tc := ⟨.hbm, 112, rfl⟩
abbrev main_call3_call0_cst_1 : Ref sig .tc := ⟨.hbm, 113, rfl⟩
abbrev main_call3_call0_call0_v0 : Ref sig .tc := ⟨.hbm, 114, rfl⟩
abbrev main_call3_call0_call0_v1 : Ref sig .tc := ⟨.hbm, 115, rfl⟩
abbrev main_call3_call0_v4 : Ref sig .tc := ⟨.hbm, 116, rfl⟩
abbrev main_call3_call0_v5 : Ref sig .tc := ⟨.hbm, 117, rfl⟩
abbrev main_call3_call0_v6 : Ref sig .tc := ⟨.hbm, 118, rfl⟩
abbrev main_call3_call0_v7 : Ref sig .tc := ⟨.hbm, 119, rfl⟩
abbrev main_call3_call0_v8 : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_c_11 : Ref sig .tc := ⟨.hbm, 128, rfl⟩
abbrev main_v58 : Ref sig .tc := ⟨.hbm, 129, rfl⟩
abbrev main_v59 : Ref sig .tc := ⟨.hbm, 130, rfl⟩
abbrev main_c_12 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_13 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_cst_14 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_15 : Ref sig .tc := ⟨.hbm, 152, rfl⟩
abbrev main_v78 : Ref sig .tc := ⟨.hbm, 153, rfl⟩
abbrev main_cst_16 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_cst_17 : Ref sig .tc := ⟨.hbm, 158, rfl⟩
abbrev main_call4_v0 : Ref sig .tc := ⟨.hbm, 159, rfl⟩
abbrev main_call4_v1 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_call5_cst : Ref sig .tc := ⟨.hbm, 170, rfl⟩
abbrev main_call5_call0_cst : Ref sig .tc := ⟨.hbm, 171, rfl⟩
abbrev main_call5_call0_v0 : Ref sig .tc := ⟨.hbm, 172, rfl⟩
abbrev main_call5_call0_v1 : Ref sig .tc := ⟨.hbm, 173, rfl⟩
abbrev main_call5_call0_cst_0 : Ref sig .tc := ⟨.hbm, 174, rfl⟩
abbrev main_call5_call0_v2 : Ref sig .tc := ⟨.hbm, 175, rfl⟩
abbrev main_call5_call0_v3 : Ref sig .tc := ⟨.hbm, 176, rfl⟩
abbrev main_call5_call0_cst_1 : Ref sig .tc := ⟨.hbm, 177, rfl⟩
abbrev main_call5_call0_call0_v0 : Ref sig .tc := ⟨.hbm, 178, rfl⟩
abbrev main_call5_call0_call0_v1 : Ref sig .tc := ⟨.hbm, 179, rfl⟩
abbrev main_call5_call0_v4 : Ref sig .tc := ⟨.hbm, 180, rfl⟩
abbrev main_call5_call0_v5 : Ref sig .tc := ⟨.hbm, 181, rfl⟩
abbrev main_call5_call0_v6 : Ref sig .tc := ⟨.hbm, 182, rfl⟩
abbrev main_call5_call0_v7 : Ref sig .tc := ⟨.hbm, 183, rfl⟩
abbrev main_call5_call0_v8 : Ref sig .tc := ⟨.hbm, 184, rfl⟩
abbrev main_call5_v0 : Ref sig .tc := ⟨.hbm, 185, rfl⟩
abbrev main_call5_cst_0 : Ref sig .tc := ⟨.hbm, 186, rfl⟩
abbrev main_call5_v1 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_call6_cst : Ref sig .tc := ⟨.hbm, 193, rfl⟩
abbrev main_call6_call0_cst : Ref sig .tc := ⟨.hbm, 194, rfl⟩
abbrev main_call6_call0_v0 : Ref sig .tc := ⟨.hbm, 195, rfl⟩
abbrev main_call6_call0_v1 : Ref sig .tc := ⟨.hbm, 196, rfl⟩
abbrev main_call6_call0_cst_0 : Ref sig .tc := ⟨.hbm, 197, rfl⟩
abbrev main_call6_call0_v2 : Ref sig .tc := ⟨.hbm, 198, rfl⟩
abbrev main_call6_call0_v3 : Ref sig .tc := ⟨.hbm, 199, rfl⟩
abbrev main_call6_call0_cst_1 : Ref sig .tc := ⟨.hbm, 200, rfl⟩
abbrev main_call6_call0_call0_v0 : Ref sig .tc := ⟨.hbm, 201, rfl⟩
abbrev main_call6_call0_call0_v1 : Ref sig .tc := ⟨.hbm, 202, rfl⟩
abbrev main_call6_call0_v4 : Ref sig .tc := ⟨.hbm, 203, rfl⟩
abbrev main_call6_call0_v5 : Ref sig .tc := ⟨.hbm, 204, rfl⟩
abbrev main_call6_call0_v6 : Ref sig .tc := ⟨.hbm, 205, rfl⟩
abbrev main_call6_call0_v7 : Ref sig .tc := ⟨.hbm, 206, rfl⟩
abbrev main_call6_call0_v8 : Ref sig .tc := ⟨.hbm, 207, rfl⟩
abbrev main_call6_v0 : Ref sig .tc := ⟨.hbm, 208, rfl⟩
abbrev main_call6_cst_0 : Ref sig .tc := ⟨.hbm, 209, rfl⟩
abbrev main_call6_v1 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x8_S512x136_d1 : Shape.Concatenates [S512x128, S512x8] S512x136 1
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x136_S136x256_S512x256_1_0_0_1_n_n_wf : DotDims.WF S512x136 S136x256 S512x256 [1] [0] [0] [1] [] []
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x136_S136x256_S512x256_1_0_0_1_n_n : DotDims S512x136 S136x256 S512x256 where
  lhsContracting := [1]
  rhsContracting := [0]
  lhsNonContracting := [0]
  rhsNonContracting := [1]
  lhsBatch := []
  rhsBatch := []
  wf := dot_S512x136_S136x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's run with its RESULT kept: every weakly fair execution of @main ends with the result buffer
  at the last boundary's contents (the fold of the host stretches and the four regions' write-backs from the launch
  memory) and the argument arrays as launched. The run is the several-region launch over the same segments, thread
  states and boundary contents as the frame; only the post reads one more buffer off the last thread state.
-/
import proofs.«134255_j26018911879219_1_alg».proof.Proof.Gen.KernelIdeal.Frame

-- membership in a rectangle with long axes recurses once per coordinate
set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- At the compiled mesh, from any memory with zero counters: every weakly fair execution of @main terminates, nothing
    faulting, with the result buffer at the last boundary's contents and every argument array as launched. -/
theorem run_result : θ_run defs (onTc (τ := τ) (main (F := F))) ⟨m, fun _ => 0, ρ⟩ (fun r => ∀ c : Dev nD,
      r.2.mem ((c.tc : Thread nD τ).loc main_v77) = W15 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v77 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c)⟩)

end Cert.KernelIdeal.Result

end
-- ==== Proof.Spec.lean ====
/-
  The graph network both programs compute, as whole-array stage functions of the argument arrays.

  * `degNorm idx`      : per node, (max 1 (number of entries of `idx` equal to the node))^(-1/2)
  * `aggregate`        : rows scaled by the source norm, gathered along the edge sources, summed into the edge
                          destinations, scaled by the destination norm:  D_dst^(-1/2) A D_src^(-1/2) X
  * `selu S h`         : scale · (x if x > 0 else alpha · expm1 (0 if x > 0 else x)), elementwise
  * `dense*`           : X W + b, the bias broadcast along the rows
  * `readout`          : per graph, the mean of its nodes' rows (count clipped below at 1), beside the graph features
  * `head`             : three dense layers, the first two followed by selu
  * `network`          : three graph convolutions (selu after the first two), the readout, the head, flattened
-/
import proofs.«134255_j26018911879219_1_alg».proof.Proof.Gen.ReferenceIdeal
import Idealize.ShloMosaic.PureOps.Ideal

noncomputable section

namespace Cert.Gcn

open Idealize.ShloMosaic Cert.ReferenceIdeal Cert.ReferenceIdeal.Facts₀

variable {F : FTy → Type} [FloatOps F]

/-- Float and integer arrays of a shape. -/
abbrev FA (F : FTy → Type) (S : Shape) : Type := (⟨S, .f32⟩ : BufTy).Contents (Elt F)
abbrev IA (F : FTy → Type) (S : Shape) : Type := (⟨S, .i32⟩ : BufTy).Contents (Elt F)

/-- Per node: the number of edge entries naming it, clipped below at one, to the power -1/2. -/
def degNorm (idx : IA F S1600000) : FA F S100000 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32))))
    (broadcastInDim S100000 ![] bcast_S_S100000 (constant S_ .f32 0xBF000000#32))

/-- A vector along the nodes as a column repeated over the 128 features. -/
def colBcast (v : FA F S100000) : FA F S100000x128 :=
  broadcastInDim S100000x128 ![0, 1] bcast_S100000x1_S100000x128_0_1 (broadcastInDim S100000x1 ![0] bcast_S100000_S100000x1_0 v)

/-- The edge sources with a negative entry wrapped once (jnp's indexing convention), as a column of indices. -/
def wrapIdx (src : IA F S1600000) : IA F S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- D_dst^(-1/2) A D_src^(-1/2) X: scale by the source norm, gather along the sources, sum into the destinations,
    scale by the destination norm. -/
def aggregate (x : FA F S100000x128) (ns nd : FA F S100000) (src dst : IA F S1600000) : FA F S100000x128 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 (mulf x (colBcast ns)) (wrapIdx src)))
    (colBcast nd)

/-- selu, elementwise, in the reference's spelling: scale · (x if x > 0 else alpha · expm1 (0 if x > 0 else x)). -/
def selu (S : Shape) (h : S_.BroadcastsInDim S (![] : Fin 0 → Fin S.rank)) (x : FA F S) : FA F S :=
  mulf (broadcastInDim S ![] h (constant S_ .f32 0x3F867D5F#32))
    (select (cmpf .ogt x (broadcastInDim S ![] h (constant S_ .f32 0x00000000#32))) x
      (mulf (broadcastInDim S ![] h (id (constant S_ .f32 0x3FD62D7D#32)))
        (Host.expm1 (select (cmpf .ogt x (broadcastInDim S ![] h (constant S_ .f32 0x00000000#32)))
          (broadcastInDim S ![] h (id (constant S_ .f32 0x00000000#32))) x))))

/-- X W + b over the nodes. -/
def denseNodes (x : FA F S100000x128) (w : FA F S128x128) (b : FA F S128) : FA F S100000x128 :=
  addf (Host.dotGeneral dot_S100000x128_S128x128_S100000x128_1_0_0_1_n_n none x w)
    (broadcastInDim S100000x128 ![0, 1] bcast_S1x128_S100000x128_0_1 (broadcastInDim S1x128 ![1] bcast_S128_S1x128_1 b))

/-- One graph convolution followed by selu. -/
def convSelu (x : FA F S100000x128) (w : FA F S128x128) (b : FA F S128) : FA F S100000x128 :=
  selu S100000x128 bcast_S_S100000x128 (denseNodes x w b)

/-- Per graph the mean of its nodes' rows (the count clipped below at one), beside the graph's own features. -/
def readout (x : FA F S100000x128) (gid : IA F S100000) (fg : FA F S512x8) : FA F S512x136 :=
  concatenate S512x136 1
    [⟨S512x128, Host.divf
        (Host.scatterAdd scatter_S512x128_S100000x1_S100000x128_1_0_0_1
          (broadcastInDim S512x128 ![] bcast_S_S512x128 (constant S_ .f32 0x00000000#32))
          (broadcastInDim S100000x1 ![0] bcast_S100000_S100000x1_0 gid) x)
        (broadcastInDim S512x128 ![0, 1] bcast_S512x1_S512x128_0_1 (broadcastInDim S512x1 ![0] bcast_S512_S512x1_0
          (maximumf (broadcastInDim S512 ![] bcast_S_S512 (id (constant S_ .f32 0x3F800000#32)))
            (Host.scatterAdd scatter_S512_S100000x1_S100000_n_0_0_1
              (broadcastInDim S512 ![] bcast_S_S512 (constant S_ .f32 0x00000000#32))
              (broadcastInDim S100000x1 ![0] bcast_S100000_S100000x1_0 gid)
              (broadcastInDim S100000 ![] bcast_S_S100000 (constant S_ .f32 0x3F800000#32))))))⟩,
     ⟨S512x8, fg⟩] concatenates_S512x128_S512x8_S512x136_d1

/-- The head's three dense layers. -/
def dense1 (y : FA F S512x136) (w : FA F S136x256) (b : FA F S256) : FA F S512x256 :=
  addf (Host.dotGeneral dot_S512x136_S136x256_S512x256_1_0_0_1_n_n none y w)
    (broadcastInDim S512x256 ![0, 1] bcast_S1x256_S512x256_0_1 (broadcastInDim S1x256 ![1] bcast_S256_S1x256_1 b))
def dense2 (y : FA F S512x256) (w : FA F S256x128) (b : FA F S128) : FA F S512x128 :=
  addf (Host.dotGeneral dot_S512x256_S256x128_S512x128_1_0_0_1_n_n none y w)
    (broadcastInDim S512x128 ![0, 1] bcast_S1x128_S512x128_0_1 (broadcastInDim S1x128 ![1] bcast_S128_S1x128_1 b))
def dense3 (y : FA F S512x128) (w : FA F S128x1) (b : FA F S1) : FA F S512x1 :=
  addf (Host.dotGeneral dot_S512x128_S128x1_S512x1_1_0_0_1_n_n none y w)
    (broadcastInDim S512x1 ![0, 1] bcast_S1x1_S512x1_0_1 (broadcastInDim S1x1 ![1] bcast_S1_S1x1_1 b))

/-- The head: dense, selu, dense, selu, dense. -/
def head (y : FA F S512x136) (w1 : FA F S136x256) (b1 : FA F S256) (w2 : FA F S256x128) (b2 : FA F S128)
    (w3 : FA F S128x1) (b3 : FA F S1) : FA F S512x1 :=
  dense3 (selu S512x128 bcast_S_S512x128 (dense2 (selu S512x256 bcast_S_S512x256 (dense1 y w1 b1)) w2 b2)) w3 b3

/-- The column of per-graph outputs as a vector. -/
def flatten (x : FA F S512x1) : FA F S512 := fun i => shapeCast S512 x shapeCasts_S512x1_S512 i

/-- The third convolution's output rows, from the argument arrays. -/
def nodeFeatures (x0 : FA F S100000x128) (src dst : IA F S1600000) (w1 : FA F S128x128) (b1 : FA F S128)
    (w2 : FA F S128x128) (b2 : FA F S128) (w3 : FA F S128x128) (b3 : FA F S128) : FA F S100000x128 :=
  denseNodes (aggregate
    (convSelu (aggregate
      (convSelu (aggregate x0 (degNorm src) (degNorm dst) src dst) w1 b1)
      (degNorm src) (degNorm dst) src dst) w2 b2)
    (degNorm src) (degNorm dst) src dst) w3 b3

/-- The whole network. -/
def network (x0 : FA F S100000x128) (fg : FA F S512x8) (src dst : IA F S1600000) (gid : IA F S100000)
    (w1 : FA F S128x128) (b1 : FA F S128) (w2 : FA F S128x128) (b2 : FA F S128) (w3 : FA F S128x128) (b3 : FA F S128)
    (wl1 : FA F S136x256) (bl1 : FA F S256) (wl2 : FA F S256x128) (bl2 : FA F S128) (wl3 : FA F S128x1) (bl3 : FA F S1) :
    FA F S512 :=
  flatten (head (readout (nodeFeatures x0 src dst w1 b1 w2 b2 w3 b3) gid fg) wl1 bl1 wl2 bl2 wl3 bl3)

end Cert.Gcn

end
-- ==== Proof.KernelHost.lean ====
/-
  The idealized kernel's host stretches, read as values.

  Between the four regions the program runs the same host operations as the specification's stages: the two degree
  norms and the first aggregation before region 0, one aggregation before each of regions 1 and 2, the per-graph mean
  and the concatenation with the graph features before region 3, and the final flattening.  For each stretch: the list
  of buffers it writes (any other buffer keeps its contents), and its output buffer as the specification's stage
  function of the contents of its input buffers, for any contents.
-/
import proofs.«134255_j26018911879219_1_alg».proof.Proof.Gen.KernelIdeal.Launch
import proofs.«134255_j26018911879219_1_alg».proof.Proof.Spec
import Idealize.ShloMosaic.Lib.StableHlo.Run

set_option maxRecDepth 16384

noncomputable section

namespace Cert.KernelIdeal.Host

open Cert.KernelIdeal Cert.KernelIdeal.Gen Cert.Gcn
open Idealize.ShloMosaic Idealize.ShloMosaic.TcCoe Idealize.ShloMosaic.StableHlo Idealize.SL.Sem

variable {F : FTy → Type} [FloatOps F]

/-! ## What each stretch writes -/

/-- The buffers `hostOps0` writes. -/
abbrev hostOps0_W : List (Ref sig .tc) := [main_cst, main_v0, main_cst_0, main_v1, main_v2, main_v3, main_cst_1, main_v4, main_v5, main_v6, main_cst_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0` does not write keeps its contents. -/
theorem hostOps0_keeps (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The buffers `hostOps0_1` writes. -/
abbrev hostOps0_1_W : List (Ref sig .tc) := [main_call0_v0, main_call0_v1, main_v7]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0_1` does not write keeps its contents. -/
theorem hostOps0_1_keeps (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The buffers `hostOps0_2` writes. -/
abbrev hostOps0_2_W : List (Ref sig .tc) := [main_cst_3, main_v8, main_v9, main_cst_4]
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0_2` does not write keeps its contents. -/
theorem hostOps0_2_keeps (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The buffers `hostOps0_3` writes. -/
abbrev hostOps0_3_W : List (Ref sig .tc) := [main_call1_v0, main_call1_v1, main_v10]
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0_3` does not write keeps its contents. -/
theorem hostOps0_3_keeps (V : Valuation τ sig (Elt F)) (r : Ref sig .tc) (h : r ∉ hostOps0_3_W) :
    StableHlo.after hostOps0_3 V (Proc.devRef .tc r) = V (Proc.devRef .tc r) :=
  StableHlo.after_of_writes_sub hostOps0_3 V hostOps0_3_writes h

/-- The buffers `hostOps0_4` writes. -/
abbrev hostOps0_4_W : List (Ref sig .tc) := [main_cst_5, main_v11, main_v12, main_v13, main_v14, main_v15, main_c, main_v16, main_v17, main_c_6, main_v18, main_v19, main_v20, main_v21, main_v22, main_cst_7, main_v23, main_v24, main_v25, main_v26, main_v27, main_v28]
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0_4` does not write keeps its contents. -/
theorem hostOps0_4_keeps (V : Valuation τ sig (Elt F)) (r : Ref sig .tc) (h : r ∉ hostOps0_4_W) :
    StableHlo.after hostOps0_4 V (Proc.devRef .tc r) = V (Proc.devRef .tc r) :=
  StableHlo.after_of_writes_sub hostOps0_4 V hostOps0_4_writes h

/-- The buffers `hostOps1` writes. -/
abbrev hostOps1_W : List (Ref sig .tc) := [main_v30, main_v31, main_v32, main_c_8, main_v33, main_v34, main_c_9, main_v35, main_v36, main_v37, main_v38, main_v39, main_cst_10, main_v40, main_v41, main_v42, main_v43, main_v44, main_v45]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps1` does not write keeps its contents. -/
theorem hostOps1_keeps (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The buffers `hostOps2` writes. -/
abbrev hostOps2_W : List (Ref sig .tc) := [main_v47, main_v48, main_v49, main_c_11, main_v50, main_v51, main_c_12, main_v52, main_v53, main_v54, main_v55, main_v56, main_cst_13, main_v57, main_v58, main_v59, main_v60, main_v61, main_v62]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps2` does not write keeps its contents. -/
theorem hostOps2_keeps (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The buffers `hostOps3` writes. -/
abbrev hostOps3_W : List (Ref sig .tc) := [main_cst_14, main_v64, main_v65, main_v66, main_cst_15, main_v67, main_cst_16, main_v68, main_v69, main_v70, main_cst_17]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps3` does not write keeps its contents. -/
theorem hostOps3_keeps (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

/-- The buffers `hostOps3_1` writes. -/
abbrev hostOps3_1_W : List (Ref sig .tc) := [main_call2_v0, main_call2_v1, main_v71]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps3_1` does not write keeps its contents. -/
theorem hostOps3_1_keeps (V : Valuation τ sig (Elt F)) (r : Ref sig .tc) (h : r ∉ hostOps3_1_W) :
    StableHlo.after hostOps3_1 V (Proc.devRef .tc r) = V (Proc.devRef .tc r) :=
  StableHlo.after_of_writes_sub hostOps3_1 V hostOps3_1_writes h

/-- The buffers `hostOps3_2` writes. -/
abbrev hostOps3_2_W : List (Ref sig .tc) := [main_v72, main_v73, main_v74, main_v75]
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps3_2` does not write keeps its contents. -/
theorem hostOps3_2_keeps (V : Valuation τ sig (Elt F)) (r : Ref sig .tc) (h : r ∉ hostOps3_2_W) :
    StableHlo.after hostOps3_2 V (Proc.devRef .tc r) = V (Proc.devRef .tc r) :=
  StableHlo.after_of_writes_sub hostOps3_2 V hostOps3_2_writes h

/-- The buffers `hostOps4` writes. -/
abbrev hostOps4_W : List (Ref sig .tc) := [main_v77]
theorem hostOps4_writes : (hostOps4 : List (HloOp τ sig (Elt F))).Forall fun op => op.writes ⊆ (hostOps4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps4` does not write keeps its contents. -/
theorem hostOps4_keeps (V : Valuation τ sig (Elt F)) (r : Ref sig .tc) (h : r ∉ hostOps4_W) :
    StableHlo.after hostOps4 V (Proc.devRef .tc r) = V (Proc.devRef .tc r) :=
  StableHlo.after_of_writes_sub hostOps4 V hostOps4_writes h

/-! ## What each stretch computes -/

variable (V : Valuation τ sig (Elt F))

/-- The five stretches before region 0, in order. -/
abbrev pre : Valuation τ sig (Elt F) :=
  StableHlo.after hostOps0_4 (StableHlo.after hostOps0_3 (StableHlo.after hostOps0_2 (StableHlo.after hostOps0_1 (StableHlo.after hostOps0 V))))

/-- The source-side degree norm. -/
theorem pre_normSrc : pre V (Proc.devRef .tc main_v9) = degNorm (F := F) (V (Proc.devRef .tc main_arg2)) := by
  dsimp only [pre]
  after_results
  rfl

/-- The destination-side degree norm. -/
theorem pre_normDst : pre V (Proc.devRef .tc main_v12) = degNorm (F := F) (V (Proc.devRef .tc main_arg3)) := by
  dsimp only [pre]
  after_results
  rfl

set_option maxHeartbeats 4000000 in
/-- The first aggregation. -/
theorem pre_agg : pre V (Proc.devRef .tc main_v28)
    = aggregate (F := F) (V (Proc.devRef .tc main_arg0)) (degNorm (V (Proc.devRef .tc main_arg2))) (degNorm (V (Proc.devRef .tc main_arg3)))
        (V (Proc.devRef .tc main_arg2)) (V (Proc.devRef .tc main_arg3)) := by
  dsimp only [pre]
  after_results_simp
  rfl

/-- A buffer none of the five writes keeps its contents. -/
theorem pre_keeps (r : Ref sig .tc) (h0 : r ∉ hostOps0_W) (h1 : r ∉ hostOps0_1_W) (h2 : r ∉ hostOps0_2_W) (h3 : r ∉ hostOps0_3_W)
    (h4 : r ∉ hostOps0_4_W) : pre V (Proc.devRef .tc r) = V (Proc.devRef .tc r) := by
  dsimp only [pre]
  rw [hostOps0_4_keeps _ r h4, hostOps0_3_keeps _ r h3, hostOps0_2_keeps _ r h2, hostOps0_1_keeps _ r h1, hostOps0_keeps _ r h0]

set_option maxHeartbeats 4000000 in
/-- The second aggregation, from region 0's output. -/
theorem agg1 : StableHlo.after hostOps1 V (Proc.devRef .tc main_v45)
    = aggregate (F := F) (V (Proc.devRef .tc main_v29)) (V (Proc.devRef .tc main_v9)) (V (Proc.devRef .tc main_v12))
        (V (Proc.devRef .tc main_arg2)) (V (Proc.devRef .tc main_arg3)) := by
  after_results_simp
  rfl

set_option maxHeartbeats 4000000 in
/-- The third aggregation, from region 1's output. -/
theorem agg2 : StableHlo.after hostOps2 V (Proc.devRef .tc main_v62)
    = aggregate (F := F) (V (Proc.devRef .tc main_v46)) (V (Proc.devRef .tc main_v9)) (V (Proc.devRef .tc main_v12))
        (V (Proc.devRef .tc main_arg2)) (V (Proc.devRef .tc main_arg3)) := by
  after_results_simp
  rfl

/-- The three stretches before region 3, in order. -/
abbrev mid : Valuation τ sig (Elt F) :=
  StableHlo.after hostOps3_2 (StableHlo.after hostOps3_1 (StableHlo.after hostOps3 V))

set_option maxHeartbeats 4000000 in
/-- The per-graph mean beside the graph features, from region 2's output. -/
theorem mid_readout : mid V (Proc.devRef .tc main_v75)
    = readout (F := F) (V (Proc.devRef .tc main_v63)) (V (Proc.devRef .tc main_arg4)) (V (Proc.devRef .tc main_arg1)) := by
  dsimp only [mid]
  after_results_simp
  rfl

theorem mid_keeps (r : Ref sig .tc) (h0 : r ∉ hostOps3_W) (h1 : r ∉ hostOps3_1_W) (h2 : r ∉ hostOps3_2_W) :
    mid V (Proc.devRef .tc r) = V (Proc.devRef .tc r) := by
  dsimp only [mid]
  rw [hostOps3_2_keeps _ r h2, hostOps3_1_keeps _ r h1, hostOps3_keeps _ r h0]

/-- The final flattening of region 3's output column. -/
theorem flat : StableHlo.after hostOps4 V (Proc.devRef .tc main_v77) = flatten (F := F) (V (Proc.devRef .tc main_v76)) := by
  after_results
  rfl

end Cert.KernelIdeal.Host

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.DenseMath.lean ====
/-
  The two spellings of one dense layer, read index by index on the extended reals.

  `lin A B b` is the affine row map: at (i, j) the sum over l of A (i, l) · B (l, j), plus b (j).
  `seluS a` is selu of one extended real: scale · (a if a > 0 else alpha · (exp a − 1)).

  The kernel's body computes a matrix product into a zero accumulator plus a bias row spread over the rows, then
  (in the activated layers) scale · select (z > 0) z (alpha · (exp z − 1)).  The specification computes the host's
  general dot plus the bias broadcast, then scale · select (z > 0) z (alpha · expm1 (select (z > 0) 0 z)).
  Both are `lin`, and both activations are `seluS` pointwise: where z > 0 neither inner branch is read, and
  elsewhere the inner select returns z and expm1 z is exp z − 1.  Changes of float format are the identity.
-/
import proofs.«134255_j26018911879219_1_alg».proof.Proof.LibMatRows
import proofs.«134255_j26018911879219_1_alg».proof.Proof.Spec
import Idealize.ShloMosaic.Lib.IdealHost

noncomputable section

open Idealize.ShloMosaic Idealize.ShloMosaic.ValueIdx

namespace Cert.Gcn

/-- selu of one extended real: scale · (a if a > 0 else alpha · (exp a − 1)). -/
def seluS (a : EReal) : EReal :=
  Ideal.ofBits .f32 0x3F867D5F#32 *
    Scalar.select (Ideal.cmp .ogt a (Ideal.ofBits .f32 0x00000000#32)) a
      (Ideal.ofBits .f32 0x3FD62D7D#32 * (Ideal.exp a - Ideal.ofBits .f32 0x3F800000#32))

/-- The affine row map: at (i, j), the sum over l of A (i, l) · B (l, j), plus b (j). -/
def lin {M K N : Nat} (A : (⟨2, ![M, K]⟩ : Shape).Idx → EReal) (B : (⟨2, ![K, N]⟩ : Shape).Idx → EReal)
    (b : (⟨1, ![N]⟩ : Shape).Idx → EReal) : (⟨2, ![M, N]⟩ : Shape).Idx → EReal :=
  fun j => (∑ l : Fin K, A (ix2 (j 0) l) * B (ix2 l (j 1))) + b (ix1 (j 1))

theorem lin_apply {M K N : Nat} (A : (⟨2, ![M, K]⟩ : Shape).Idx → EReal) (B : (⟨2, ![K, N]⟩ : Shape).Idx → EReal)
    (b : (⟨1, ![N]⟩ : Shape).Idx → EReal) (i : Fin M) (j : Fin N) :
    lin A B b (ix2 i j) = (∑ l : Fin K, A (ix2 i l) * B (ix2 l j)) + b (ix1 j) := rfl

/-- `lin` at a row reads that row of the left operand only. -/
theorem lin_row {M M' K N : Nat} (A : (⟨2, ![M, K]⟩ : Shape).Idx → EReal) (A' : (⟨2, ![M', K]⟩ : Shape).Idx → EReal)
    (B B' : (⟨2, ![K, N]⟩ : Shape).Idx → EReal) (b b' : (⟨1, ![N]⟩ : Shape).Idx → EReal) (i : Fin M) (i' : Fin M') (j : Fin N)
    (hA : ∀ l, A (ix2 i l) = A' (ix2 i' l)) (hB : B = B') (hb : b = b') :
    lin A B b (ix2 i j) = lin A' B' b' (ix2 i' j) := by
  subst hB hb
  rw [lin_apply, lin_apply]
  exact congrArg (· + b (ix1 j)) (Finset.sum_congr rfl fun l _ => by rw [hA l])

/-! ## The kernel's spelling -/

/-- The kernel's activation, pointwise. -/
theorem seluK_eq {S : Shape} (z : FVec Ideal S .f32) :
    mulf (broadcast S (Scalar.ofBits .f32 0x3F867D5F#32))
      (select (cmpf .ogt z (broadcast S (Scalar.ofBits .f32 0x00000000#32))) z
        (mulf (broadcast S (Scalar.ofBits .f32 0x3FD62D7D#32)) (subf (exp z) (broadcast S (Scalar.ofBits .f32 0x3F800000#32)))))
    = fun i => seluS (z i) := rfl

/-- A bias vector as a row spread over M rows, read at (i, j). -/
theorem biasRow_apply {M N : Nat} (b : (⟨1, ![N]⟩ : Shape).Idx → EReal) (h1 : (⟨1, ![N]⟩ : Shape).ShapeCasts ⟨2, ![1, N]⟩)
    (h2 : (⟨2, ![1, N]⟩ : Shape).Broadcasts ⟨2, ![M, N]⟩) (i : Fin M) (j : Fin N) :
    broadcastTo ⟨2, ![M, N]⟩ (shapeCast ⟨2, ![1, N]⟩ b h1) h2 (ix2 i j) = b (ix1 j) := by
  rw [broadcastTo_1b_ab_apply, shapeCast_a_1a_apply]

/-- The kernel's dense layer before the activation: product into a zero accumulator plus the bias row. -/
theorem linK_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ .bf16) (B : FVec Ideal ⟨2, ![K, N]⟩ .bf16) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    addf (matmul d none A B (constant ⟨2, ![M, N]⟩ .f32 0x00000000#32)) (broadcastTo ⟨2, ![M, N]⟩ (shapeCast ⟨2, ![1, N]⟩ b h1) h2)
      = lin A B b := by
  funext j
  obtain ⟨p, q, rfl⟩ : ∃ (p : Fin M) (q : Fin N), j = ix2 p q := ⟨j 0, j 1, eq_ix2 j⟩
  rw [addf_apply, Cert.MatRows.matmul_zero_apply d hr hs hl0 hl1 hr0 hr1, biasRow_apply, lin_apply]

/-! ## The specification's spelling -/

/-- The host's general dot of an M × K by a K × N matrix, read at (i, j): the sum over the contracted position. -/
theorem dotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    Host.dotGeneral d none A B (ix2 i j) = ∑ l : Fin K, A (ix2 i l) * B (ix2 l j) := by
  show FloatOps.dotGeneral d none _ A B (ix2 i j) = _
  rw [Ideal.dotGeneral_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- A bias vector broadcast to a row and then over M rows, read at (i, j). -/
theorem biasBcast_apply {M N : Nat} (b : (⟨1, ![N]⟩ : Shape).Idx → EReal)
    (h1 : (⟨1, ![N]⟩ : Shape).BroadcastsInDim ⟨2, ![1, N]⟩ ![1]) (h2 : (⟨2, ![1, N]⟩ : Shape).BroadcastsInDim ⟨2, ![M, N]⟩ ![0, 1])
    (i : Fin M) (j : Fin N) :
    broadcastInDim ⟨2, ![M, N]⟩ ![0, 1] h2 (broadcastInDim ⟨2, ![1, N]⟩ ![1] h1 b) (ix2 i j) = b (ix1 j) := by
  rw [broadcastInDim_apply ![0, 1] h2 _ (ix2 i j) (ix2 (0 : Fin 1) j) (fun a => by
        match a with
        | ⟨0, _⟩ => rfl
        | ⟨1, _⟩ =>
          show j.val = if N = 1 then 0 else j.val
          split
          · have := j.isLt; omega
          · rfl),
      broadcastInDim_apply ![1] h1 b (ix2 (0 : Fin 1) j) (ix1 j) (fun a => by
        match a with
        | ⟨0, _⟩ =>
          show j.val = if N = 1 then 0 else j.val
          split
          · have := j.isLt; omega
          · rfl)]

/-- The specification's dense layer before the activation: the general dot plus the bias broadcast. -/
theorem linR_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ .f32) (B : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral d none A B) (broadcastInDim ⟨2, ![M, N]⟩ ![0, 1] h2 (broadcastInDim ⟨2, ![1, N]⟩ ![1] h1 b))
      = lin A B b := by
  funext j
  obtain ⟨p, q, rfl⟩ : ∃ (p : Fin M) (q : Fin N), j = ix2 p q := ⟨j 0, j 1, eq_ix2 j⟩
  rw [addf_apply, dotGeneral_plain_apply d hr hs hl0 hl1 hr0 hr1, biasBcast_apply, lin_apply]

/-- A scalar broadcast to every position reads the scalar. -/
theorem scalarBcast_apply {S : Shape} (h : (⟨0, ![]⟩ : Shape).BroadcastsInDim S (![] : Fin 0 → Fin S.rank))
    (x : (⟨0, ![]⟩ : Shape).Idx → EReal) (i : S.Idx) : broadcastInDim S ![] h x i = x ix0 :=
  broadcastInDim_apply ![] h x i ix0 (fun a => a.elim0)

/-- The specification's activation, pointwise: where z > 0 the inner branch is not read; elsewhere the inner select
    returns z, and expm1 z is exp z − 1. -/
theorem selu_eq (S : Shape) (h : Cert.ReferenceIdeal.S_.BroadcastsInDim S (![] : Fin 0 → Fin S.rank)) (z : FA Ideal S) :
    selu S h z = fun i => seluS (z i) := by
  funext i
  unfold selu seluS
  rw [mulf_apply, select_apply, cmpf_apply, mulf_apply]
  simp only [scalarBcast_apply, constant_apply, id, Host.expm1, select_apply, cmpf_apply, Ideal.hostUnary_expm1_def,
    Ideal.cmpf_def]
  by_cases hc : Ideal.cmp .ogt (z i) (Ideal.ofBits .f32 0x00000000#32) = 1#1
  · simp only [hc, select_one]
  · have h0 := eq_zero_of_ne_one hc
    simp only [h0, select_zero, Ideal.ofBits_one_f32]

end Cert.Gcn

end
-- ==== Proof.Layer0.lean ====
/-
  Region 0 of the kernel: one dense layer over the node rows, twenty blocks of 5000 rows.

  At grid point t the body reads rows [5000 t, 5000 t + 5000) of the aggregated features, the whole weight matrix and
  the whole bias, and writes the same rows of the output.  Entry (p, q) of what it writes is selu of the sum over l of
  (row p of the block) (l) · W (l, q), plus b (q): a function of that ONE row of the input.  So block t of the written
  array is block t of the whole-array dense layer of the specification, the blocks tile the rows, and the array the
  region leaves is that layer of the arrays the region finds.
-/
import proofs.«134255_j26018911879219_1_alg».proof.Proof.Gen.KernelIdeal.Frame
import proofs.«134255_j26018911879219_1_alg».proof.Proof.DenseMath
import Idealize.ShloMosaic.Lib.Pipeline.Value

set_option maxRecDepth 16384

noncomputable section

namespace Cert.KernelIdeal.Layer0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its three loaded blocks: selu of the affine row map. -/
theorem pay_eq (x0 : Vec Ideal S5000x128 .f32) (x1 : Vec Ideal S128x128 .f32) (x2 : Vec Ideal S128 .f32) :
    k0_pay1 x0 x1 x2 = fun y => seluS (lin x0 x1 x2 y) := by
  have e : k0_pay1 x0 x1 x2 = fun i => seluS ((addf (F := Ideal) (matmul dot_S5000x128_S128x128_S5000x128_1_0_0_1_n_n none
      (truncf .bf16 x0 bitsLt_bf16_f32) (truncf .bf16 x1 bitsLt_bf16_f32) (constant S5000x128 .f32 0x00000000#32))
      (broadcastTo S5000x128 (shapeCast S1x128 x2 shapeCasts_S128_S1x128) broadcasts_S1x128_S5000x128) : FVec Ideal S5000x128 .f32) i) := by
    unfold k0_pay1
    rw [shapeCast_self]
    rfl
  rw [e, linK_eq dot_S5000x128_S128x128_S5000x128_1_0_0_1_n_n rfl rfl (fun _ _ => rfl) (fun _ _ => rfl) (fun _ _ => rfl) (fun _ _ => rfl)]
  rfl

variable (V : (c : Dev nD) → (b : Ref sig .tc) → Buf (Elt Ideal) ((c : Thread nD τ).loc b))

/-- The printed index maps, decided over the twenty points: the input rows move with the output rows, the weight and
    the bias stay at block zero, and the output's column block is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 19 :=
  (by decide +kernel : ∀ t : Fin grid0.N, _)

/-- Every row block is some point's. -/
theorem idx_onto : ∀ q : Fin 20, ∃ t : Fin cfg0.N, win0_3.index t = ![q.val, 0] :=
  (by decide +kernel : ∀ q : Fin 20, ∃ t : Fin grid0.N, win0_3.index t = ![q.val, 0])

/-- The array the region leaves in its output, as a function of the arrays it finds. -/
abbrev G (c : Dev nD) : Buf (Elt Ideal) ((cfg0.win 3).arr.view.loc (c.tc : Thread nD τ)) :=
  convSelu (F := Ideal) (V c main_v28) (V c main_arg5) (V c main_arg6)

/-- The specification's layer, read at an index. -/
theorem G_apply (c : Dev nD) (i : S100000x128.Idx) :
    G V c i = seluS (lin (M := 100000) (K := 128) (N := 128) (V c main_v28) (V c main_arg5) (V c main_arg6) i) := by
  show convSelu (F := Ideal) (V c main_v28) (V c main_arg5) (V c main_arg6) i = _
  unfold convSelu
  rw [selu_eq]
  show seluS (denseNodes (F := Ideal) (V c main_v28) (V c main_arg5) (V c main_arg6) i) = _
  unfold denseNodes
  rw [linR_eq Cert.ReferenceIdeal.dot_S100000x128_S128x128_S100000x128_1_0_0_1_n_n rfl rfl (fun _ _ => rfl) (fun _ _ => rfl) (fun _ _ => rfl) (fun _ _ => rfl)]

/-- WHAT POINT t WRITES BACK is block t of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [pay_eq]
  obtain ⟨e0, e1, e2, e3, e4, e5, e6⟩ := idx_facts t
  funext y
  show seluS (lin (iblk0 V c 0 t) (iblk0 V c 1 t) (iblk0 V c 2 t) y) = G V c (((cfg0.win 3).blk t).view.emb y)
  rw [G_apply]
  obtain ⟨p, q, rfl⟩ : ∃ (p : Fin 5000) (q : Fin 128), y = ix2 p q := ⟨y 0, y 1, eq_ix2 y⟩
  have hrow : win0_3.index t (0 : Fin 2) * 5000 + 1 * p.val < 100000 := by have := p.isLt; omega
  have hemb : ((cfg0.win 3).blk t).view.emb (ix2 p q) = ix2 (⟨win0_3.index t (0 : Fin 2) * 5000 + 1 * p.val, hrow⟩ : Fin 100000) q := by
    funext a; apply Fin.ext
    match a with
    | ⟨0, _⟩ => rfl
    | ⟨1, _⟩ => show win0_3.index t (1 : Fin 2) * 128 + 1 * q.val = q.val; omega
  rw [hemb]
  congr 1
  refine (lin_row _ _ _ _ _ _ _ _ q (fun l => ?_) ?_ ?_).symm
  · show V c main_v28 _ = V c main_v28 (((cfg0.win 0).blk t).view.emb (ix2 p l))
    refine congrArg _ ?_
    funext a; apply Fin.ext
    match a with
    | ⟨0, _⟩ => show win0_3.index t (0 : Fin 2) * 5000 + 1 * p.val = win0_0.index t (0 : Fin 2) * 5000 + 1 * p.val; omega
    | ⟨1, _⟩ => show l.val = win0_0.index t (1 : Fin 2) * 128 + 1 * l.val; omega
  · funext z
    show V c main_arg5 z = V c main_arg5 (((cfg0.win 1).blk t).view.emb z)
    refine congrArg _ ?_
    funext a; apply Fin.ext
    match a with
    | ⟨0, _⟩ => show (z 0).val = win0_1.index t (0 : Fin 2) * 128 + 1 * (z 0).val; omega
    | ⟨1, _⟩ => show (z 1).val = win0_1.index t (1 : Fin 2) * 128 + 1 * (z 1).val; omega
  · funext z
    show V c main_arg6 z = V c main_arg6 (((cfg0.win 2).blk t).view.emb z)
    refine congrArg _ ?_
    funext a; apply Fin.ext
    match a with
    | ⟨0, _⟩ => show (z 0).val = win0_2.index t (0 : Fin 1) * 128 + 1 * (z 0).val; omega

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v29).slice (win0_3.rect t)).set ↔ _
  rw [View.set_slice_whole, Rect.mem_set_unit]
  exact Iff.rfl

/-- The twenty row blocks tile the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY the region leaves: the specification's layer of the arrays it finds. -/
theorem out_eq (c : Dev nD) : (dat0 (F := Ideal) V c).arrAt 3 cfg0.N = G V c :=
  (dat0 (F := Ideal) V c).arrAt_eq_of_cover 3 (G V c) (fun t _ => flushed_eq V c t) (cover)

end Cert.KernelIdeal.Layer0

end
-- ==== Proof.Layer1.lean ====
/-
  Region 1 of the kernel: one dense layer over the node rows, twenty blocks of 5000 rows.

  At grid point t the body reads rows [5000 t, 5000 t + 5000) of the aggregated features, the whole weight matrix and
  the whole bias, and writes the same rows of the output.  Entry (p, q) of what it writes is selu of the sum over l of
  (row p of the block) (l) · W (l, q), plus b (q): a function of that ONE row of the input.  So block t of the written
  array is block t of the whole-array dense layer of the specification, the blocks tile the rows, and the array the
  region leaves is that layer of the arrays the region finds.
-/
import proofs.«134255_j26018911879219_1_alg».proof.Proof.Gen.KernelIdeal.Frame
import proofs.«134255_j26018911879219_1_alg».proof.Proof.DenseMath
import Idealize.ShloMosaic.Lib.Pipeline.Value

set_option maxRecDepth 16384

noncomputable section

namespace Cert.KernelIdeal.Layer1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its three loaded blocks: selu of the affine row map. -/
theorem pay_eq (x0 : Vec Ideal S5000x128 .f32) (x1 : Vec Ideal S128x128 .f32) (x2 : Vec Ideal S128 .f32) :
    k1_pay1 x0 x1 x2 = fun y => seluS (lin x0 x1 x2 y) := by
  have e : k1_pay1 x0 x1 x2 = fun i => seluS ((addf (F := Ideal) (matmul dot_S5000x128_S128x128_S5000x128_1_0_0_1_n_n none
      (truncf .bf16 x0 bitsLt_bf16_f32) (truncf .bf16 x1 bitsLt_bf16_f32) (constant S5000x128 .f32 0x00000000#32))
      (broadcastTo S5000x128 (shapeCast S1x128 x2 shapeCasts_S128_S1x128) broadcasts_S1x128_S5000x128) : FVec Ideal S5000x128 .f32) i) := by
    unfold k1_pay1
    rw [shapeCast_self]
    rfl
  rw [e, linK_eq dot_S5000x128_S128x128_S5000x128_1_0_0_1_n_n rfl rfl (fun _ _ => rfl) (fun _ _ => rfl) (fun _ _ => rfl) (fun _ _ => rfl)]
  rfl

variable (V : (c : Dev nD) → (b : Ref sig .tc) → Buf (Elt Ideal) ((c : Thread nD τ).loc b))

/-- The printed index maps, decided over the twenty points: the input rows move with the output rows, the weight and
    the bias stay at block zero, and the output's column block is zero. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 19 :=
  (by decide +kernel : ∀ t : Fin grid1.N, _)

/-- Every row block is some point's. -/
theorem idx_onto : ∀ q : Fin 20, ∃ t : Fin cfg1.N, win1_3.index t = ![q.val, 0] :=
  (by decide +kernel : ∀ q : Fin 20, ∃ t : Fin grid1.N, win1_3.index t = ![q.val, 0])

/-- The array the region leaves in its output, as a function of the arrays it finds. -/
abbrev G (c : Dev nD) : Buf (Elt Ideal) ((cfg1.win 3).arr.view.loc (c.tc : Thread nD τ)) :=
  convSelu (F := Ideal) (V c main_v45) (V c main_arg7) (V c main_arg8)

/-- The specification's layer, read at an index. -/
theorem G_apply (c : Dev nD) (i : S100000x128.Idx) :
    G V c i = seluS (lin (M := 100000) (K := 128) (N := 128) (V c main_v45) (V c main_arg7) (V c main_arg8) i) := by
  show convSelu (F := Ideal) (V c main_v45) (V c main_arg7) (V c main_arg8) i = _
  unfold convSelu
  rw [selu_eq]
  show seluS (denseNodes (F := Ideal) (V c main_v45) (V c main_arg7) (V c main_arg8) i) = _
  unfold denseNodes
  rw [linR_eq Cert.ReferenceIdeal.dot_S100000x128_S128x128_S100000x128_1_0_0_1_n_n rfl rfl (fun _ _ => rfl) (fun _ _ => rfl) (fun _ _ => rfl) (fun _ _ => rfl)]

/-- WHAT POINT t WRITES BACK is block t of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz2]
  simp only [View.ld_unit_zero (S := S5000x128) hz2, View.ld_unit_zero (S := S128x128) hz2, View.ld_unit_zero (S := S128) hz1]
  rw [pay_eq]
  obtain ⟨e0, e1, e2, e3, e4, e5, e6⟩ := idx_facts t
  funext y
  show seluS (lin (iblk1 V c 0 t) (iblk1 V c 1 t) (iblk1 V c 2 t) y) = G V c (((cfg1.win 3).blk t).view.emb y)
  rw [G_apply]
  obtain ⟨p, q, rfl⟩ : ∃ (p : Fin 5000) (q : Fin 128), y = ix2 p q := ⟨y 0, y 1, eq_ix2 y⟩
  have hrow : win1_3.index t (0 : Fin 2) * 5000 + 1 * p.val < 100000 := by have := p.isLt; omega
  have hemb : ((cfg1.win 3).blk t).view.emb (ix2 p q) = ix2 (⟨win1_3.index t (0 : Fin 2) * 5000 + 1 * p.val, hrow⟩ : Fin 100000) q := by
    funext a; apply Fin.ext
    match a with
    | ⟨0, _⟩ => rfl
    | ⟨1, _⟩ => show win1_3.index t (1 : Fin 2) * 128 + 1 * q.val = q.val; omega
  rw [hemb]
  congr 1
  refine (lin_row _ _ _ _ _ _ _ _ q (fun l => ?_) ?_ ?_).symm
  · show V c main_v45 _ = V c main_v45 (((cfg1.win 0).blk t).view.emb (ix2 p l))
    refine congrArg _ ?_
    funext a; apply Fin.ext
    match a with
    | ⟨0, _⟩ => show win1_3.index t (0 : Fin 2) * 5000 + 1 * p.val = win1_0.index t (0 : Fin 2) * 5000 + 1 * p.val; omega
    | ⟨1, _⟩ => show l.val = win1_0.index t (1 : Fin 2) * 128 + 1 * l.val; omega
  · funext z
    show V c main_arg7 z = V c main_arg7 (((cfg1.win 1).blk t).view.emb z)
    refine congrArg _ ?_
    funext a; apply Fin.ext
    match a with
    | ⟨0, _⟩ => show (z 0).val = win1_1.index t (0 : Fin 2) * 128 + 1 * (z 0).val; omega
    | ⟨1, _⟩ => show (z 1).val = win1_1.index t (1 : Fin 2) * 128 + 1 * (z 1).val; omega
  · funext z
    show V c main_arg8 z = V c main_arg8 (((cfg1.win 2).blk t).view.emb z)
    refine congrArg _ ?_
    funext a; apply Fin.ext
    match a with
    | ⟨0, _⟩ => show (z 0).val = win1_2.index t (0 : Fin 1) * 128 + 1 * (z 0).val; omega

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- The twenty row blocks tile the array. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY the region leaves: the specification's layer of the arrays it finds. -/
theorem out_eq (c : Dev nD) : (dat1 (F := Ideal) V c).arrAt 3 cfg1.N = G V c :=
  (dat1 (F := Ideal) V c).arrAt_eq_of_cover 3 (G V c) (fun t _ => flushed_eq V c t) (cover)

end Cert.KernelIdeal.Layer1

end
-- ==== Proof.Layer2.lean ====
/-
  Region 2 of the kernel: one dense layer over the node rows, twenty blocks of 5000 rows.

  At grid point t the body reads rows [5000 t, 5000 t + 5000) of the aggregated features, the whole weight matrix and
  the whole bias, and writes the same rows of the output.  Entry (p, q) of what it writes is the sum over l of
  (row p of the block) (l) · W (l, q), plus b (q): a function of that ONE row of the input.  So block t of the written
  array is block t of the whole-array dense layer of the specification, the blocks tile the rows, and the array the
  region leaves is that layer of the arrays the region finds.
-/
import proofs.«134255_j26018911879219_1_alg».proof.Proof.Gen.KernelIdeal.Frame
import proofs.«134255_j26018911879219_1_alg».proof.Proof.DenseMath
import Idealize.ShloMosaic.Lib.Pipeline.Value

set_option maxRecDepth 16384

noncomputable section

namespace Cert.KernelIdeal.Layer2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its three loaded blocks: the affine row map. -/
theorem pay_eq (x0 : Vec Ideal S5000x128 .f32) (x1 : Vec Ideal S128x128 .f32) (x2 : Vec Ideal S128 .f32) :
    k2_pay1 x0 x1 x2 = fun y => lin x0 x1 x2 y := by
  have e : k2_pay1 x0 x1 x2 = fun i => ((addf (F := Ideal) (matmul dot_S5000x128_S128x128_S5000x128_1_0_0_1_n_n none
      (truncf .bf16 x0 bitsLt_bf16_f32) (truncf .bf16 x1 bitsLt_bf16_f32) (constant S5000x128 .f32 0x00000000#32))
      (broadcastTo S5000x128 (shapeCast S1x128 x2 shapeCasts_S128_S1x128) broadcasts_S1x128_S5000x128) : FVec Ideal S5000x128 .f32) i) := by
    unfold k2_pay1
    rw [shapeCast_self]
  rw [e, linK_eq dot_S5000x128_S128x128_S5000x128_1_0_0_1_n_n rfl rfl (fun _ _ => rfl) (fun _ _ => rfl) (fun _ _ => rfl) (fun _ _ => rfl)]
  rfl

variable (V : (c : Dev nD) → (b : Ref sig .tc) → Buf (Elt Ideal) ((c : Thread nD τ).loc b))

/-- The printed index maps, decided over the twenty points: the input rows move with the output rows, the weight and
    the bias stay at block zero, and the output's column block is zero. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) ≤ 19 :=
  (by decide +kernel : ∀ t : Fin grid2.N, _)

/-- Every row block is some point's. -/
theorem idx_onto : ∀ q : Fin 20, ∃ t : Fin cfg2.N, win2_3.index t = ![q.val, 0] :=
  (by decide +kernel : ∀ q : Fin 20, ∃ t : Fin grid2.N, win2_3.index t = ![q.val, 0])

/-- The array the region leaves in its output, as a function of the arrays it finds. -/
abbrev G (c : Dev nD) : Buf (Elt Ideal) ((cfg2.win 3).arr.view.loc (c.tc : Thread nD τ)) :=
  denseNodes (F := Ideal) (V c main_v62) (V c main_arg9) (V c main_arg10)

/-- The specification's layer, read at an index. -/
theorem G_apply (c : Dev nD) (i : S100000x128.Idx) :
    G V c i = (lin (M := 100000) (K := 128) (N := 128) (V c main_v62) (V c main_arg9) (V c main_arg10) i) := by
  show denseNodes (F := Ideal) (V c main_v62) (V c main_arg9) (V c main_arg10) i = _

  unfold denseNodes
  rw [linR_eq Cert.ReferenceIdeal.dot_S100000x128_S128x128_S100000x128_1_0_0_1_n_n rfl rfl (fun _ _ => rfl) (fun _ _ => rfl) (fun _ _ => rfl) (fun _ _ => rfl)]

/-- WHAT POINT t WRITES BACK is block t of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz2]
  simp only [View.ld_unit_zero (S := S5000x128) hz2, View.ld_unit_zero (S := S128x128) hz2, View.ld_unit_zero (S := S128) hz1]
  rw [pay_eq]
  obtain ⟨e0, e1, e2, e3, e4, e5, e6⟩ := idx_facts t
  funext y
  show (lin (iblk2 V c 0 t) (iblk2 V c 1 t) (iblk2 V c 2 t) y) = G V c (((cfg2.win 3).blk t).view.emb y)
  rw [G_apply]
  obtain ⟨p, q, rfl⟩ : ∃ (p : Fin 5000) (q : Fin 128), y = ix2 p q := ⟨y 0, y 1, eq_ix2 y⟩
  have hrow : win2_3.index t (0 : Fin 2) * 5000 + 1 * p.val < 100000 := by have := p.isLt; omega
  have hemb : ((cfg2.win 3).blk t).view.emb (ix2 p q) = ix2 (⟨win2_3.index t (0 : Fin 2) * 5000 + 1 * p.val, hrow⟩ : Fin 100000) q := by
    funext a; apply Fin.ext
    match a with
    | ⟨0, _⟩ => rfl
    | ⟨1, _⟩ => show win2_3.index t (1 : Fin 2) * 128 + 1 * q.val = q.val; omega
  rw [hemb]

  refine (lin_row _ _ _ _ _ _ _ _ q (fun l => ?_) ?_ ?_).symm
  · show V c main_v62 _ = V c main_v62 (((cfg2.win 0).blk t).view.emb (ix2 p l))
    refine congrArg _ ?_
    funext a; apply Fin.ext
    match a with
    | ⟨0, _⟩ => show win2_3.index t (0 : Fin 2) * 5000 + 1 * p.val = win2_0.index t (0 : Fin 2) * 5000 + 1 * p.val; omega
    | ⟨1, _⟩ => show l.val = win2_0.index t (1 : Fin 2) * 128 + 1 * l.val; omega
  · funext z
    show V c main_arg9 z = V c main_arg9 (((cfg2.win 1).blk t).view.emb z)
    refine congrArg _ ?_
    funext a; apply Fin.ext
    match a with
    | ⟨0, _⟩ => show (z 0).val = win2_1.index t (0 : Fin 2) * 128 + 1 * (z 0).val; omega
    | ⟨1, _⟩ => show (z 1).val = win2_1.index t (1 : Fin 2) * 128 + 1 * (z 1).val; omega
  · funext z
    show V c main_arg10 z = V c main_arg10 (((cfg2.win 2).blk t).view.emb z)
    refine congrArg _ ?_
    funext a; apply Fin.ext
    match a with
    | ⟨0, _⟩ => show (z 0).val = win2_2.index t (0 : Fin 1) * 128 + 1 * (z 0).val; omega

/-- An index of the array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v63).slice (win2_3.rect t)).set ↔ _
  rw [View.set_slice_whole, Rect.mem_set_unit]
  exact Iff.rfl

/-- The twenty row blocks tile the array. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE ARRAY the region leaves: the specification's layer of the arrays it finds. -/
theorem out_eq (c : Dev nD) : (dat2 (F := Ideal) V c).arrAt 3 cfg2.N = G V c :=
  (dat2 (F := Ideal) V c).arrAt_eq_of_cover 3 (G V c) (fun t _ => flushed_eq V c t) (cover)

end Cert.KernelIdeal.Layer2

end
-- ==== Proof.Layer3.lean ====
/-
  Region 3 of the kernel: the head, one block holding all 512 graphs.

  The body reads the readout matrix, the three weight matrices and the three biases whole, and writes the 512 × 1
  output whole: dense, selu, dense, selu, dense, each dense layer a matrix product into a zero accumulator plus the
  bias row, the intermediate changes of float format the identity.  That is the specification's head of the arrays
  the region finds, and the single block is the whole array.
-/
import proofs.«134255_j26018911879219_1_alg».proof.Proof.Gen.KernelIdeal.Frame
import proofs.«134255_j26018911879219_1_alg».proof.Proof.DenseMath
import Idealize.ShloMosaic.Lib.Pipeline.Value

set_option maxRecDepth 16384

noncomputable section

namespace Cert.KernelIdeal.Layer3

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The first two layers of the body: dense, selu, dense, selu. -/
theorem pay2_eq (x0 : Vec Ideal S512x136 .f32) (x1 : Vec Ideal S136x256 .f32) (x2 : Vec Ideal S256 .f32)
    (x3 : Vec Ideal S256x128 .f32) (x4 : Vec Ideal S128 .f32) :
    k3_pay2 x0 x1 x2 x3 x4 = fun z => seluS (lin (fun u => seluS (lin x0 x1 x2 u)) x3 x4 z) := by
  have e : k3_pay2 x0 x1 x2 x3 x4 = fun z => seluS ((addf (F := Ideal)
      (matmul dot_S512x256_S256x128_S512x128_1_0_0_1_n_n none
        (truncf .bf16 ((fun u => seluS ((addf (F := Ideal)
            (matmul dot_S512x136_S136x256_S512x256_1_0_0_1_n_n none (truncf .bf16 x0 bitsLt_bf16_f32) (truncf .bf16 x1 bitsLt_bf16_f32)
              (constant S512x256 .f32 0x00000000#32))
            (broadcastTo S512x256 (shapeCast S1x256 x2 shapeCasts_S256_S1x256) broadcasts_S1x256_S512x256) : FVec Ideal S512x256 .f32) u))
              : FVec Ideal S512x256 .f32) bitsLt_bf16_f32)
        (truncf .bf16 x3 bitsLt_bf16_f32) (constant S512x128 .f32 0x00000000#32))
      (broadcastTo S512x128 (shapeCast S1x128 x4 shapeCasts_S128_S1x128) broadcasts_S1x128_S512x128) : FVec Ideal S512x128 .f32) z) := by
    unfold k3_pay2
    rw [shapeCast_self]
    rfl
  rw [e, linK_eq dot_S512x136_S136x256_S512x256_1_0_0_1_n_n rfl rfl (fun _ _ => rfl) (fun _ _ => rfl) (fun _ _ => rfl) (fun _ _ => rfl),
    linK_eq dot_S512x256_S256x128_S512x128_1_0_0_1_n_n rfl rfl (fun _ _ => rfl) (fun _ _ => rfl) (fun _ _ => rfl) (fun _ _ => rfl)]
  rfl

/-- The last layer of the body: dense. -/
theorem pay1_eq (v : FVec Ideal S512x128 .bf16) (x5 : Vec Ideal S128x1 .f32) (x6 : Vec Ideal S1 .f32) :
    k3_pay1 v x5 x6 = lin v x5 x6 := by
  have e : k3_pay1 v x5 x6 = (addf (F := Ideal)
      (matmul dot_S512x128_S128x1_S512x1_1_0_0_1_n_n none v (truncf .bf16 x5 bitsLt_bf16_f32) (constant S512x1 .f32 0x00000000#32))
      (broadcastTo S512x1 (shapeCast S1x1 x6 shapeCasts_S1_S1x1) broadcasts_S1x1_S512x1) : FVec Ideal S512x1 .f32) := rfl
  rw [e, linK_eq dot_S512x128_S128x1_S512x1_1_0_0_1_n_n rfl rfl (fun _ _ => rfl) (fun _ _ => rfl) (fun _ _ => rfl) (fun _ _ => rfl)]
  rfl

/-- The whole body on blocks that are the arrays themselves. -/
theorem body_eq (x0 : Vec Ideal S512x136 .f32) (x1 : Vec Ideal S136x256 .f32) (x2 : Vec Ideal S256 .f32)
    (x3 : Vec Ideal S256x128 .f32) (x4 : Vec Ideal S128 .f32) (x5 : Vec Ideal S128x1 .f32) (x6 : Vec Ideal S1 .f32)
    (A0 : Vec Ideal S512x136 .f32) (A1 : Vec Ideal S136x256 .f32) (A2 : Vec Ideal S256 .f32)
    (A3 : Vec Ideal S256x128 .f32) (A4 : Vec Ideal S128 .f32) (A5 : Vec Ideal S128x1 .f32) (A6 : Vec Ideal S1 .f32)
    (h0 : x0 = A0) (h1 : x1 = A1) (h2 : x2 = A2) (h3 : x3 = A3) (h4 : x4 = A4) (h5 : x5 = A5) (h6 : x6 = A6) :
    k3_pay1 (k3_pay2 x0 x1 x2 x3 x4) x5 x6
      = lin (fun z => seluS (lin (fun u => seluS (lin A0 A1 A2 u)) A3 A4 z)) A5 A6 := by
  subst h0 h1 h2 h3 h4 h5 h6
  rw [pay2_eq, pay1_eq]

variable (V : (c : Dev nD) → (b : Ref sig .tc) → Buf (Elt Ideal) ((c : Thread nD τ).loc b))

/-- The printed index maps at the single point: every window's block is block zero. -/
theorem idx_facts : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = 0
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 2) = 0
    ∧ win3_7.index t (1 : Fin 2) = 0 :=
  (by decide +kernel : ∀ t : Fin grid3.N, _)

/-- The array the region leaves in its output, as a function of the arrays it finds. -/
abbrev G (c : Dev nD) : Buf (Elt Ideal) ((cfg3.win 7).arr.view.loc (c.tc : Thread nD τ)) :=
  head (F := Ideal) (V c main_v75) (V c main_arg11) (V c main_arg12) (V c main_arg13) (V c main_arg14) (V c main_arg15) (V c main_arg16)

/-- The specification's head as three affine row maps with selu between them. -/
theorem G_eq (c : Dev nD) :
    G V c = lin (M := 512) (K := 128) (N := 1) (fun z => seluS (lin (M := 512) (K := 256) (N := 128)
      (fun u => seluS (lin (M := 512) (K := 136) (N := 256) (V c main_v75) (V c main_arg11) (V c main_arg12) u))
        (V c main_arg13) (V c main_arg14) z)) (V c main_arg15) (V c main_arg16) := by
  show head (F := Ideal) (V c main_v75) (V c main_arg11) (V c main_arg12) (V c main_arg13) (V c main_arg14) (V c main_arg15) (V c main_arg16) = _
  unfold head dense3 dense2 dense1
  rw [linR_eq Cert.ReferenceIdeal.dot_S512x136_S136x256_S512x256_1_0_0_1_n_n rfl rfl (fun _ _ => rfl) (fun _ _ => rfl) (fun _ _ => rfl) (fun _ _ => rfl),
    selu_eq,
    linR_eq Cert.ReferenceIdeal.dot_S512x256_S256x128_S512x128_1_0_0_1_n_n rfl rfl (fun _ _ => rfl) (fun _ _ => rfl) (fun _ _ => rfl) (fun _ _ => rfl),
    selu_eq,
    linR_eq Cert.ReferenceIdeal.dot_S512x128_S128x1_S512x1_1_0_0_1_n_n rfl rfl (fun _ _ => rfl) (fun _ _ => rfl) (fun _ _ => rfl) (fun _ _ => rfl)]

set_option maxHeartbeats 4000000 in
/-- WHAT THE POINT WRITES BACK is the whole of `G`. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  unfold out3_7
  rw [View.canon_unit_zero hz2]
  simp only [View.ld_unit_zero (S := S512x136) hz2, View.ld_unit_zero (S := S136x256) hz2, View.ld_unit_zero (S := S256) hz1,
    View.ld_unit_zero (S := S256x128) hz2, View.ld_unit_zero (S := S128) hz1, View.ld_unit_zero (S := S128x1) hz2,
    View.ld_unit_zero (S := S1) hz1]
  obtain ⟨f0_0, f0_1, f1_0, f1_1, f2_0, f3_0, f3_1, f4_0, f5_0, f5_1, f6_0, f7_0, f7_1⟩ := idx_facts t
  have b0 : iblk3 V c 0 t = V c main_v75 := by
    funext z
    show V c main_v75 (((cfg3.win 0).blk t).view.emb z) = V c main_v75 z
    refine congrArg _ ?_
    funext a; apply Fin.ext
    match a with
    | ⟨0, _⟩ => show win3_0.index t (0 : Fin 2) * 512 + 1 * (z 0).val = (z 0).val; omega
    | ⟨1, _⟩ => show win3_0.index t (1 : Fin 2) * 136 + 1 * (z 1).val = (z 1).val; omega
  have b1 : iblk3 V c 1 t = V c main_arg11 := by
    funext z
    show V c main_arg11 (((cfg3.win 1).blk t).view.emb z) = V c main_arg11 z
    refine congrArg _ ?_
    funext a; apply Fin.ext
    match a with
    | ⟨0, _⟩ => show win3_1.index t (0 : Fin 2) * 136 + 1 * (z 0).val = (z 0).val; omega
    | ⟨1, _⟩ => show win3_1.index t (1 : Fin 2) * 256 + 1 * (z 1).val = (z 1).val; omega
  have b2 : iblk3 V c 2 t = V c main_arg12 := by
    funext z
    show V c main_arg12 (((cfg3.win 2).blk t).view.emb z) = V c main_arg12 z
    refine congrArg _ ?_
    funext a; apply Fin.ext
    match a with
    | ⟨0, _⟩ => show win3_2.index t (0 : Fin 1) * 256 + 1 * (z 0).val = (z 0).val; omega
  have b3 : iblk3 V c 3 t = V c main_arg13 := by
    funext z
    show V c main_arg13 (((cfg3.win 3).blk t).view.emb z) = V c main_arg13 z
    refine congrArg _ ?_
    funext a; apply Fin.ext
    match a with
    | ⟨0, _⟩ => show win3_3.index t (0 : Fin 2) * 256 + 1 * (z 0).val = (z 0).val; omega
    | ⟨1, _⟩ => show win3_3.index t (1 : Fin 2) * 128 + 1 * (z 1).val = (z 1).val; omega
  have b4 : iblk3 V c 4 t = V c main_arg14 := by
    funext z
    show V c main_arg14 (((cfg3.win 4).blk t).view.emb z) = V c main_arg14 z
    refine congrArg _ ?_
    funext a; apply Fin.ext
    match a with
    | ⟨0, _⟩ => show win3_4.index t (0 : Fin 1) * 128 + 1 * (z 0).val = (z 0).val; omega
  have b5 : iblk3 V c 5 t = V c main_arg15 := by
    funext z
    show V c main_arg15 (((cfg3.win 5).blk t).view.emb z) = V c main_arg15 z
    refine congrArg _ ?_
    funext a; apply Fin.ext
    match a with
    | ⟨0, _⟩ => show win3_5.index t (0 : Fin 2) * 128 + 1 * (z 0).val = (z 0).val; omega
    | ⟨1, _⟩ => show win3_5.index t (1 : Fin 2) * 1 + 1 * (z 1).val = (z 1).val; omega
  have b6 : iblk3 V c 6 t = V c main_arg16 := by
    funext z
    show V c main_arg16 (((cfg3.win 6).blk t).view.emb z) = V c main_arg16 z
    refine congrArg _ ?_
    funext a; apply Fin.ext
    match a with
    | ⟨0, _⟩ => show win3_6.index t (0 : Fin 1) * 1 + 1 * (z 0).val = (z 0).val; omega
  rw [body_eq _ _ _ _ _ _ _ _ _ _ _ _ _ _ b0 b1 b2 b3 b4 b5 b6]
  funext y
  show _ = G V c (((cfg3.win 7).blk t).view.emb y)
  have hemb : ((cfg3.win 7).blk t).view.emb y = y := by
    funext a; apply Fin.ext
    match a with
    | ⟨0, _⟩ => show win3_7.index t (0 : Fin 2) * 512 + 1 * (y 0).val = (y 0).val; omega
    | ⟨1, _⟩ => show win3_7.index t (1 : Fin 2) * 1 + 1 * (y 1).val = (y 1).val; omega
  rw [hemb, G_eq]

/-- An index of the array is in the point's block iff each coordinate is in the block's range on its axis. -/
theorem mem_blk (t : Fin cfg3.N) (i : S512x1.Idx) :
    i ∈ ((cfg3.win 7).blk t).view.set ↔ ∀ a : Fin 2, win3_7.index t a * S512x1.size a ≤ (i a).val ∧ (i a).val < win3_7.index t a * S512x1.size a + S512x1.size a := by
  show i ∈ ((View.whole main_v76).slice (win3_7.rect t)).set ↔ _
  rw [View.set_slice_whole, Rect.mem_set_unit]
  exact Iff.rfl

/-- The one block is the whole array. -/
theorem cover (i : S512x1.Idx) : ∃ t : Fin cfg3.N, (cfg3.win 7).flush t = true ∧ i ∈ ((cfg3.win 7).blk t).view.set := by
  have hi0 : (i 0).val < 512 := (i 0).isLt
  have hi1 : (i 1).val < 1 := (i 1).isLt
  obtain ⟨f0_0, f0_1, f1_0, f1_1, f2_0, f3_0, f3_1, f4_0, f5_0, f5_1, f6_0, f7_0, f7_1⟩ := idx_facts t3_0
  refine ⟨t3_0, flush3_7 t3_0, ?_⟩
  rw [mem_blk]
  intro a
  match a with
  | ⟨0, _⟩ => show win3_7.index t3_0 (0 : Fin 2) * 512 ≤ (i 0).val ∧ (i 0).val < win3_7.index t3_0 (0 : Fin 2) * 512 + 512; omega
  | ⟨1, _⟩ => show win3_7.index t3_0 (1 : Fin 2) * 1 ≤ (i 1).val ∧ (i 1).val < win3_7.index t3_0 (1 : Fin 2) * 1 + 1; omega

/-- THE ARRAY the region leaves: the specification's head of the arrays it finds. -/
theorem out_eq (c : Dev nD) : (dat3 (F := Ideal) V c).arrAt 7 cfg3.N = G V c :=
  (dat3 (F := Ideal) V c).arrAt_eq_of_cover 7 (G V c) (fun t _ => flushed_eq V c t) (cover)

end Cert.KernelIdeal.Layer3

end
-- ==== Proof.KernelValue.lean ====
/-
  The idealized kernel's result as the specification's network of the argument arrays.

  The boundary contents are a fold from the launch memory: host stretches and regions in program order.  Walking it:
  before region 0 the two degree norms and the first aggregation; region 0 leaves convolution-and-selu of it; the next
  stretch aggregates that; region 1 again; the next stretch; region 2 the third dense layer; then the per-graph mean
  beside the graph features; region 3 the head; and the last operation flattens the column.  A buffer that a stretch
  or a region does not write keeps its contents, so the argument arrays and the two norms are read back to the launch.
-/
import proofs.«134255_j26018911879219_1_alg».proof.Proof.KernelRun
import proofs.«134255_j26018911879219_1_alg».proof.Proof.KernelHost
import proofs.«134255_j26018911879219_1_alg».proof.Proof.Layer0
import proofs.«134255_j26018911879219_1_alg».proof.Proof.Layer1
import proofs.«134255_j26018911879219_1_alg».proof.Proof.Layer2
import proofs.«134255_j26018911879219_1_alg».proof.Proof.Layer3

set_option maxRecDepth 16384

noncomputable section

namespace Cert.KernelIdeal.Result

open Cert.KernelIdeal Cert.KernelIdeal.Gen Cert.KernelIdeal.Host Cert.Gcn
open Idealize.ShloMosaic Idealize.ShloMosaic.TcCoe Idealize.SL.Sem

variable (m : (ℓ : Loc nD τ sig) → Buf (Elt Ideal) ℓ) (ρ : Dev nD → PrngReg) (c : Dev nD)

/-! ## Buffers read back to the launch, boundary by boundary -/

theorem at5 (r : Ref sig .tc) (h0 : r ∉ hostOps0_W := by decide) (h1 : r ∉ hostOps0_1_W := by decide) (h2 : r ∉ hostOps0_2_W := by decide)
    (h3 : r ∉ hostOps0_3_W := by decide) (h4 : r ∉ hostOps0_4_W := by decide) :
    W5 m ρ c (Proc.devRef .tc r) = m ((c.tc : Thread nD τ).loc r) :=
  (pre_keeps (W0 m ρ c) r h0 h1 h2 h3 h4).trans rfl

theorem step6 (r : Ref sig .tc) (h : ∀ w, Pipeline.arrRef spec0 w ≠ r := by decide) : W6 m ρ c (Proc.devRef .tc r) = W5 m ρ c (Proc.devRef .tc r) :=
  W6_of_ne m ρ c r h
theorem step7 (r : Ref sig .tc) (h : r ∉ hostOps1_W := by decide) : W7 m ρ c (Proc.devRef .tc r) = W6 m ρ c (Proc.devRef .tc r) :=
  hostOps1_keeps (W6 m ρ c) r h
theorem step8 (r : Ref sig .tc) (h : ∀ w, Pipeline.arrRef spec1 w ≠ r := by decide) : W8 m ρ c (Proc.devRef .tc r) = W7 m ρ c (Proc.devRef .tc r) :=
  W8_of_ne m ρ c r h
theorem step9 (r : Ref sig .tc) (h : r ∉ hostOps2_W := by decide) : W9 m ρ c (Proc.devRef .tc r) = W8 m ρ c (Proc.devRef .tc r) :=
  hostOps2_keeps (W8 m ρ c) r h
theorem step10 (r : Ref sig .tc) (h : ∀ w, Pipeline.arrRef spec2 w ≠ r := by decide) : W10 m ρ c (Proc.devRef .tc r) = W9 m ρ c (Proc.devRef .tc r) :=
  W10_of_ne m ρ c r h
theorem step13 (r : Ref sig .tc) (h0 : r ∉ hostOps3_W := by decide) (h1 : r ∉ hostOps3_1_W := by decide) (h2 : r ∉ hostOps3_2_W := by decide) :
    W13 m ρ c (Proc.devRef .tc r) = W10 m ρ c (Proc.devRef .tc r) :=
  mid_keeps (W10 m ρ c) r h0 h1 h2

/-! ## The stages -/

/-- The two degree norms, before region 0. -/
theorem normSrc5 : W5 m ρ c (Proc.devRef .tc main_v9) = degNorm (m ((c.tc : Thread nD τ).loc main_arg2)) := pre_normSrc (W0 m ρ c)
theorem normDst5 : W5 m ρ c (Proc.devRef .tc main_v12) = degNorm (m ((c.tc : Thread nD τ).loc main_arg3)) := pre_normDst (W0 m ρ c)

/-- The first aggregation. -/
theorem agg5 : W5 m ρ c (Proc.devRef .tc main_v28) = aggregate (m ((c.tc : Thread nD τ).loc main_arg0)) (degNorm (m ((c.tc : Thread nD τ).loc main_arg2))) (degNorm (m ((c.tc : Thread nD τ).loc main_arg3))) (m ((c.tc : Thread nD τ).loc main_arg2)) (m ((c.tc : Thread nD τ).loc main_arg3)) :=
  pre_agg (W0 m ρ c)

/-- Region 0 leaves the first convolution. -/
theorem conv6 : W6 m ρ c (Proc.devRef .tc main_v29)
    = convSelu (aggregate (m ((c.tc : Thread nD τ).loc main_arg0)) (degNorm (m ((c.tc : Thread nD τ).loc main_arg2))) (degNorm (m ((c.tc : Thread nD τ).loc main_arg3))) (m ((c.tc : Thread nD τ).loc main_arg2)) (m ((c.tc : Thread nD τ).loc main_arg3))) (m ((c.tc : Thread nD τ).loc main_arg5)) (m ((c.tc : Thread nD τ).loc main_arg6)) := by
  have h : W6 m ρ c (Proc.devRef .tc main_v29) = convSelu (F := Ideal) (W5 m ρ c (Proc.devRef .tc main_v28)) (W5 m ρ c (Proc.devRef .tc main_arg5)) (W5 m ρ c (Proc.devRef .tc main_arg6)) :=
    (W6_arr m ρ c 3).trans (Layer0.out_eq (V5 m ρ) c)
  rw [h, agg5, at5 m ρ c main_arg5, at5 m ρ c main_arg6]

/-- The second aggregation. -/
theorem agg7 : W7 m ρ c (Proc.devRef .tc main_v45)
    = aggregate (W6 m ρ c (Proc.devRef .tc main_v29)) (degNorm (m ((c.tc : Thread nD τ).loc main_arg2))) (degNorm (m ((c.tc : Thread nD τ).loc main_arg3))) (m ((c.tc : Thread nD τ).loc main_arg2)) (m ((c.tc : Thread nD τ).loc main_arg3)) := by
  have h := agg1 (W6 m ρ c)
  rw [step6 m ρ c main_v9, step6 m ρ c main_v12, step6 m ρ c main_arg2, step6 m ρ c main_arg3, normSrc5, normDst5,
    at5 m ρ c main_arg2, at5 m ρ c main_arg3] at h
  exact h

/-- Region 1 leaves the second convolution. -/
theorem conv8 : W8 m ρ c (Proc.devRef .tc main_v46) = convSelu (W7 m ρ c (Proc.devRef .tc main_v45)) (m ((c.tc : Thread nD τ).loc main_arg7)) (m ((c.tc : Thread nD τ).loc main_arg8)) := by
  have h : W8 m ρ c (Proc.devRef .tc main_v46) = convSelu (F := Ideal) (W7 m ρ c (Proc.devRef .tc main_v45)) (W7 m ρ c (Proc.devRef .tc main_arg7)) (W7 m ρ c (Proc.devRef .tc main_arg8)) :=
    (W8_arr m ρ c 3).trans (Layer1.out_eq (V7 m ρ) c)
  rw [h, step7 m ρ c main_arg7, step6 m ρ c main_arg7, at5 m ρ c main_arg7, step7 m ρ c main_arg8, step6 m ρ c main_arg8, at5 m ρ c main_arg8]

/-- The third aggregation. -/
theorem agg9 : W9 m ρ c (Proc.devRef .tc main_v62)
    = aggregate (W8 m ρ c (Proc.devRef .tc main_v46)) (degNorm (m ((c.tc : Thread nD τ).loc main_arg2))) (degNorm (m ((c.tc : Thread nD τ).loc main_arg3))) (m ((c.tc : Thread nD τ).loc main_arg2)) (m ((c.tc : Thread nD τ).loc main_arg3)) := by
  have h := agg2 (W8 m ρ c)
  rw [step8 m ρ c main_v9, step7 m ρ c main_v9, step6 m ρ c main_v9, normSrc5,
    step8 m ρ c main_v12, step7 m ρ c main_v12, step6 m ρ c main_v12, normDst5,
    step8 m ρ c main_arg2, step7 m ρ c main_arg2, step6 m ρ c main_arg2, at5 m ρ c main_arg2,
    step8 m ρ c main_arg3, step7 m ρ c main_arg3, step6 m ρ c main_arg3, at5 m ρ c main_arg3] at h
  exact h

/-- An argument array before region 2, read back to the launch. -/
theorem at9 (r : Ref sig .tc) (h9 : r ∉ hostOps2_W := by decide) (h8 : ∀ w, Pipeline.arrRef spec1 w ≠ r := by decide)
    (h7 : r ∉ hostOps1_W := by decide) (h6 : ∀ w, Pipeline.arrRef spec0 w ≠ r := by decide)
    (h0 : r ∉ hostOps0_W := by decide) (h1 : r ∉ hostOps0_1_W := by decide) (h2 : r ∉ hostOps0_2_W := by decide)
    (h3 : r ∉ hostOps0_3_W := by decide) (h4 : r ∉ hostOps0_4_W := by decide) :
    W9 m ρ c (Proc.devRef .tc r) = m ((c.tc : Thread nD τ).loc r) :=
  (step9 m ρ c r h9).trans ((step8 m ρ c r h8).trans ((step7 m ρ c r h7).trans ((step6 m ρ c r h6).trans (at5 m ρ c r h0 h1 h2 h3 h4))))

/-- Region 2 leaves the third dense layer: the node features. -/
theorem feat10 : W10 m ρ c (Proc.devRef .tc main_v63) = denseNodes (W9 m ρ c (Proc.devRef .tc main_v62)) (m ((c.tc : Thread nD τ).loc main_arg9)) (m ((c.tc : Thread nD τ).loc main_arg10)) := by
  have h : W10 m ρ c (Proc.devRef .tc main_v63) = denseNodes (F := Ideal) (W9 m ρ c (Proc.devRef .tc main_v62)) (W9 m ρ c (Proc.devRef .tc main_arg9)) (W9 m ρ c (Proc.devRef .tc main_arg10)) :=
    (W10_arr m ρ c 3).trans (Layer2.out_eq (V9 m ρ) c)
  rw [h, at9 m ρ c main_arg9, at9 m ρ c main_arg10]

/-- An argument array before region 3, read back to the launch. -/
theorem at13 (r : Ref sig .tc) (ha : r ∉ hostOps3_W := by decide) (hb : r ∉ hostOps3_1_W := by decide) (hc : r ∉ hostOps3_2_W := by decide)
    (h10 : ∀ w, Pipeline.arrRef spec2 w ≠ r := by decide)
    (h9 : r ∉ hostOps2_W := by decide) (h8 : ∀ w, Pipeline.arrRef spec1 w ≠ r := by decide)
    (h7 : r ∉ hostOps1_W := by decide) (h6 : ∀ w, Pipeline.arrRef spec0 w ≠ r := by decide)
    (h0 : r ∉ hostOps0_W := by decide) (h1 : r ∉ hostOps0_1_W := by decide) (h2 : r ∉ hostOps0_2_W := by decide)
    (h3 : r ∉ hostOps0_3_W := by decide) (h4 : r ∉ hostOps0_4_W := by decide) :
    W13 m ρ c (Proc.devRef .tc r) = m ((c.tc : Thread nD τ).loc r) :=
  (step13 m ρ c r ha hb hc).trans ((step10 m ρ c r h10).trans (at9 m ρ c r h9 h8 h7 h6 h0 h1 h2 h3 h4))

/-- The readout, before region 3. -/
theorem readout13 : W13 m ρ c (Proc.devRef .tc main_v75) = readout (W10 m ρ c (Proc.devRef .tc main_v63)) (m ((c.tc : Thread nD τ).loc main_arg4)) (m ((c.tc : Thread nD τ).loc main_arg1)) := by
  have h := mid_readout (W10 m ρ c)
  rw [step10 m ρ c main_arg4, at9 m ρ c main_arg4, step10 m ρ c main_arg1, at9 m ρ c main_arg1] at h
  exact h

/-- Region 3 leaves the head. -/
theorem head14 : W14 m ρ c (Proc.devRef .tc main_v76)
    = head (W13 m ρ c (Proc.devRef .tc main_v75)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have h : W14 m ρ c (Proc.devRef .tc main_v76) = head (F := Ideal) (W13 m ρ c (Proc.devRef .tc main_v75)) (W13 m ρ c (Proc.devRef .tc main_arg11)) (W13 m ρ c (Proc.devRef .tc main_arg12))
      (W13 m ρ c (Proc.devRef .tc main_arg13)) (W13 m ρ c (Proc.devRef .tc main_arg14)) (W13 m ρ c (Proc.devRef .tc main_arg15)) (W13 m ρ c (Proc.devRef .tc main_arg16)) :=
    (W14_arr m ρ c 7).trans (Layer3.out_eq (V13 m ρ) c)
  rw [h, at13 m ρ c main_arg11, at13 m ρ c main_arg12, at13 m ρ c main_arg13, at13 m ρ c main_arg14, at13 m ρ c main_arg15, at13 m ρ c main_arg16]

/-- THE RESULT: the network of the argument arrays. -/
theorem result_eq : W15 m ρ c (Proc.devRef .tc main_v77)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have h := flat (W14 m ρ c)
  rw [head14, readout13, feat10, agg9, conv8, agg7, conv6] at h
  exact h

/-- The idealized kernel's run: the result is the network of the argument arrays, which end as launched. -/
theorem run : θ_run defs (onTc (τ := τ) (main (F := Ideal))) ⟨m, fun _ => 0, ρ⟩ (fun r => ∀ c : Dev nD,
      r.2.mem ((c.tc : Thread nD τ).loc main_v77) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result_eq m ρ c), (h c).2⟩) (run_result m ρ)

end Cert.KernelIdeal.Result

end
-- ==== Proof.RefOps.lean ====
/-
  The reference program's @main as one straight line of operations.

  @main is 123 statements, seven of them calls of module-local functions (two clips of a count below at one,
  one more on the per-graph counts, and four selu's, each through elu and two where's). Calling a function runs
  its body on the call's own buffers, so the program is the line of 200 operations below: @main's own, and at
  each call site the callee's, over the buffers that call names. The line is cut into thirteen consecutive
  pieces along the stages of the network (the degree norms; per layer the aggregation, the dense map and the
  selu; the readout; the head), so that what the line leaves in a buffer can be computed piece by piece.
  `main_eq` says @main is that line, and `run_main` that from any memory with zero counters every weakly fair
  execution terminates with every buffer at the fold of the line over the launch contents.
-/
import proofs.«134255_j26018911879219_1_alg».proof.Proof.Gen.ReferenceIdeal
import Idealize.ShloMosaic.Lib.StableHlo.Run
import Idealize.ShloMosaic.PureOps.Ideal

noncomputable section

namespace Cert.ReferenceIdeal.HandRun

open Idealize.ShloMosaic Idealize.ShloMosaic.TcCoe Idealize.SL.Sem Cert.ReferenceIdeal Cert.ReferenceIdeal.Facts₀

variable {F : FTy → Type} [FloatOps F]

/-! ## The thirteen pieces -/

/-- The two degree norms: the counts of the edge sources and of the edge destinations, clipped below at one, to the power -1/2 (%0 … %12). -/
abbrev p1 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg3 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.binary (.of main_call0_v1 : StableHlo.TRef sig ⟨S100000, .f32⟩) (.of main_v3 : StableHlo.TRef sig ⟨S100000, .f32⟩) (.of main_v7 : StableHlo.TRef sig ⟨S100000, .f32⟩) maximumf,
    StableHlo.nullary main_cst_3 (constant S_ .f32 0xBF000000#32),
    StableHlo.unary main_cst_3 main_v8 (broadcastInDim S100000 ![] bcast_S_S100000 : (⟨S_, .f32⟩ : BufTy).Contents (Elt F) → (⟨S100000, .f32⟩ : BufTy).Contents (Elt F)),
    StableHlo.binary main_v7 main_v8 main_v9 (Host.powf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.binary (.of main_call1_v1 : StableHlo.TRef sig ⟨S100000, .f32⟩) (.of main_v6 : StableHlo.TRef sig ⟨S100000, .f32⟩) (.of main_v10 : StableHlo.TRef sig ⟨S100000, .f32⟩) maximumf,
    StableHlo.nullary main_cst_5 (constant S_ .f32 0xBF000000#32),
    StableHlo.unary main_cst_5 main_v11 (broadcastInDim S100000 ![] bcast_S_S100000 : (⟨S_, .f32⟩ : BufTy).Contents (Elt F) → (⟨S100000, .f32⟩ : BufTy).Contents (Elt F)),
    StableHlo.binary main_v10 main_v11 main_v12 (Host.powf : (⟨S100000, .f32⟩ : BufTy).Contents (Elt F) → (⟨S100000, .f32⟩ : BufTy).Contents (Elt F) → (⟨S100000, .f32⟩ : BufTy).Contents (Elt F)) ]
theorem p1_fresh : (p1 : List (HloOp τ sig (Elt F))).Forall fun op => op.fresh = ∅ := by
  simp only [List.Forall]; repeat' constructor
theorem p1_sub : (p1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub ..⟩

/-- Layer 1: the normalized aggregation of the input rows and its dense map (%13 … %32). -/
abbrev p2 : List (HloOp τ sig (Elt F)) :=
  [ StableHlo.unary main_v9 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v14 main_v15 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v16 (broadcastInDim S1600000 ![] bcast_S_S1600000 : (⟨S_, .i32⟩ : BufTy).Contents (Elt F) → (⟨S1600000, .i32⟩ : BufTy).Contents (Elt F)),
    StableHlo.binary main_arg2 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v18 (broadcastInDim S1600000 ![] bcast_S_S1600000 : (⟨S_, .i32⟩ : BufTy).Contents (Elt F) → (⟨S1600000, .i32⟩ : BufTy).Contents (Elt F)),
    StableHlo.binary main_arg2 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_arg2 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_v15 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v23 (broadcastInDim S100000x128 ![] bcast_S_S100000x128 : (⟨S_, .f32⟩ : BufTy).Contents (Elt F) → (⟨S100000x128, .f32⟩ : BufTy).Contents (Elt F)),
    StableHlo.unary main_arg3 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v27 main_v28 (mulf : (⟨S100000x128, .f32⟩ : BufTy).Contents (Elt F) → (⟨S100000x128, .f32⟩ : BufTy).Contents (Elt F) → (⟨S100000x128, .f32⟩ : BufTy).Contents (Elt F)),
    StableHlo.binary main_v28 main_arg5 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)) ]
theorem p2_fresh : (p2 : List (HloOp τ sig (Elt F))).Forall fun op => op.fresh = ∅ := by
  simp only [List.Forall]; repeat' constructor
theorem p2_sub : (p2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Layer 1's selu (%33). -/
abbrev p3 : List (HloOp τ sig (Elt F)) :=
  [ StableHlo.TRef.nullary (.of main_call2_cst : StableHlo.TRef sig ⟨S_, .f32⟩) (constant S_ .f32 0x3FD62D7D#32),
    StableHlo.TRef.nullary (.of main_call2_call0_cst : StableHlo.TRef sig ⟨S_, .f32⟩) (constant S_ .f32 0x00000000#32),
    StableHlo.TRef.unary (.of main_call2_call0_cst : StableHlo.TRef sig ⟨S_, .f32⟩) (.of main_call2_call0_v0 : StableHlo.TRef sig ⟨S100000x128, .f32⟩) (broadcastInDim S100000x128 ![] bcast_S_S100000x128),
    StableHlo.TRef.binary (.of main_v32 : StableHlo.TRef sig ⟨S100000x128, .f32⟩) (.of main_call2_call0_v0 : StableHlo.TRef sig ⟨S100000x128, .f32⟩) (.of main_call2_call0_v1 : StableHlo.TRef sig ⟨S100000x128, .i1⟩) (cmpf .ogt),
    StableHlo.TRef.nullary (.of main_call2_call0_cst_0 : StableHlo.TRef sig ⟨S_, .f32⟩) (constant S_ .f32 0x00000000#32),
    StableHlo.TRef.unary (.of main_call2_call0_cst_0 : StableHlo.TRef sig ⟨S_, .f32⟩) (.of main_call2_call0_v2 : StableHlo.TRef sig ⟨S100000x128, .f32⟩) (broadcastInDim S100000x128 ![] bcast_S_S100000x128),
    StableHlo.TRef.binary (.of main_v32 : StableHlo.TRef sig ⟨S100000x128, .f32⟩) (.of main_call2_call0_v2 : StableHlo.TRef sig ⟨S100000x128, .f32⟩) (.of main_call2_call0_v3 : StableHlo.TRef sig ⟨S100000x128, .i1⟩) (cmpf .ogt),
    StableHlo.TRef.nullary (.of main_call2_call0_cst_1 : StableHlo.TRef sig ⟨S_, .f32⟩) (constant S_ .f32 0x00000000#32),
    StableHlo.TRef.unary (.of main_call2_call0_cst_1 : StableHlo.TRef sig ⟨S_, .f32⟩) (.of main_call2_call0_call0_v0 : StableHlo.TRef sig ⟨S_, .f32⟩) id,
    StableHlo.TRef.unary (.of main_call2_call0_call0_v0 : StableHlo.TRef sig ⟨S_, .f32⟩) (.of main_call2_call0_call0_v1 : StableHlo.TRef sig ⟨S100000x128, .f32⟩) (broadcastInDim S100000x128 ![] bcast_S_S100000x128),
    StableHlo.TRef.ternary (.of main_call2_call0_v3 : StableHlo.TRef sig ⟨S100000x128, .i1⟩) (.of main_call2_call0_call0_v1 : StableHlo.TRef sig ⟨S100000x128, .f32⟩) (.of main_v32 : StableHlo.TRef sig ⟨S100000x128, .f32⟩) (.of main_call2_call0_v4 : StableHlo.TRef sig ⟨S100000x128, .f32⟩) select,
    StableHlo.TRef.unary (.of main_call2_call0_v4 : StableHlo.TRef sig ⟨S100000x128, .f32⟩) (.of main_call2_call0_v5 : StableHlo.TRef sig ⟨S100000x128, .f32⟩) Host.expm1,
    StableHlo.TRef.unary (.of main_call2_cst : StableHlo.TRef sig ⟨S_, .f32⟩) (.of main_call2_call0_v6 : StableHlo.TRef sig ⟨S_, .f32⟩) id,
    StableHlo.TRef.unary (.of main_call2_call0_v6 : StableHlo.TRef sig ⟨S_, .f32⟩) (.of main_call2_call0_v7 : StableHlo.TRef sig ⟨S100000x128, .f32⟩) (broadcastInDim S100000x128 ![] bcast_S_S100000x128),
    StableHlo.TRef.binary (.of main_call2_call0_v7 : StableHlo.TRef sig ⟨S100000x128, .f32⟩) (.of main_call2_call0_v5 : StableHlo.TRef sig ⟨S100000x128, .f32⟩) (.of main_call2_call0_v8 : StableHlo.TRef sig ⟨S100000x128, .f32⟩) mulf,
    StableHlo.TRef.ternary (.of main_call2_call0_v1 : StableHlo.TRef sig ⟨S100000x128, .i1⟩) (.of main_v32 : StableHlo.TRef sig ⟨S100000x128, .f32⟩) (.of main_call2_call0_v8 : StableHlo.TRef sig ⟨S100000x128, .f32⟩) (.of main_call2_v0 : StableHlo.TRef sig ⟨S100000x128, .f32⟩) select,
    StableHlo.TRef.nullary (.of main_call2_cst_0 : StableHlo.TRef sig ⟨S_, .f32⟩) (constant S_ .f32 0x3F867D5F#32),
    StableHlo.TRef.unary (.of main_call2_cst_0 : StableHlo.TRef sig ⟨S_, .f32⟩) (.of main_call2_v1 : StableHlo.TRef sig ⟨S100000x128, .f32⟩) (broadcastInDim S100000x128 ![] bcast_S_S100000x128),
    StableHlo.TRef.binary (.of main_call2_v1 : StableHlo.TRef sig ⟨S100000x128, .f32⟩) (.of main_call2_v0 : StableHlo.TRef sig ⟨S100000x128, .f32⟩) (.of main_v33 : StableHlo.TRef sig ⟨S100000x128, .f32⟩) mulf ]
theorem p3_fresh : (p3 : List (HloOp τ sig (Elt F))).Forall fun op => op.fresh = ∅ := by
  simp only [List.Forall]; repeat' constructor
theorem p3_sub : (p3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub ..⟩

/-- Layer 2's aggregation up to the scattered sum (%34 … %46). -/
abbrev p4 : List (HloOp τ sig (Elt F)) :=
  [ StableHlo.unary main_v9 main_v34 (broadcastInDim S100000x1 ![0] bcast_S100000_S100000x1_0 : (⟨S100000, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v33 main_v35 main_v36 (mulf : (⟨S100000x128, .f32⟩ : BufTy).Contents (Elt F) → (⟨S100000x128, .f32⟩ : BufTy).Contents (Elt F) → (⟨S100000x128, .f32⟩ : BufTy).Contents (Elt F)),
    StableHlo.nullary main_c_8 (constantI S_ 32 0#32),
    StableHlo.unary main_c_8 main_v37 (broadcastInDim S1600000 ![] bcast_S_S1600000 : (⟨S_, .i32⟩ : BufTy).Contents (Elt F) → (⟨S1600000, .i32⟩ : BufTy).Contents (Elt F)),
    StableHlo.binary main_arg2 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v39 (broadcastInDim S1600000 ![] bcast_S_S1600000 : (⟨S_, .i32⟩ : BufTy).Contents (Elt F) → (⟨S1600000, .i32⟩ : BufTy).Contents (Elt F)),
    StableHlo.binary main_arg2 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_arg2 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v44 (broadcastInDim S100000x128 ![] bcast_S_S100000x128 : (⟨S_, .f32⟩ : BufTy).Contents (Elt F) → (⟨S100000x128, .f32⟩ : BufTy).Contents (Elt F)),
    StableHlo.unary main_arg3 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
theorem p4_fresh : (p4 : List (HloOp τ sig (Elt F))).Forall fun op => op.fresh = ∅ := by
  simp only [List.Forall]; repeat' constructor
theorem p4_sub : (p4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩

/-- Layer 2: the destination scaling and the dense map (%47 … %53). -/
abbrev p5 : List (HloOp τ sig (Elt F)) :=
  [ StableHlo.unary main_v12 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x128 ![0, 1] bcast_S100000x1_S100000x128_0_1 : (⟨S100000x1, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)),
    StableHlo.binary main_v49 main_arg7 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v52 main_v53 (addf : (⟨S100000x128, .f32⟩ : BufTy).Contents (Elt F) → (⟨S100000x128, .f32⟩ : BufTy).Contents (Elt F) → (⟨S100000x128, .f32⟩ : BufTy).Contents (Elt F)) ]
theorem p5_fresh : (p5 : List (HloOp τ sig (Elt F))).Forall fun op => op.fresh = ∅ := by
  simp only [List.Forall]; repeat' constructor
theorem p5_sub : (p5 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Layer 2's selu (%54). -/
abbrev p6 : List (HloOp τ sig (Elt F)) :=
  [ StableHlo.TRef.nullary (.of main_call3_cst : StableHlo.TRef sig ⟨S_, .f32⟩) (constant S_ .f32 0x3FD62D7D#32),
    StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S100000x128, .f32⟩) (broadcastInDim S100000x128 ![] bcast_S_S100000x128),
    StableHlo.TRef.binary (.of main_v53 : StableHlo.TRef sig ⟨S100000x128, .f32⟩) (.of main_call3_call0_v0 : StableHlo.TRef sig ⟨S100000x128, .f32⟩) (.of main_call3_call0_v1 : StableHlo.TRef sig ⟨S100000x128, .i1⟩) (cmpf .ogt),
    StableHlo.TRef.nullary (.of main_call3_call0_cst_0 : StableHlo.TRef sig ⟨S_, .f32⟩) (constant S_ .f32 0x00000000#32),
    StableHlo.TRef.unary (.of main_call3_call0_cst_0 : StableHlo.TRef sig ⟨S_, .f32⟩) (.of main_call3_call0_v2 : StableHlo.TRef sig ⟨S100000x128, .f32⟩) (broadcastInDim S100000x128 ![] bcast_S_S100000x128),
    StableHlo.TRef.binary (.of main_v53 : StableHlo.TRef sig ⟨S100000x128, .f32⟩) (.of main_call3_call0_v2 : StableHlo.TRef sig ⟨S100000x128, .f32⟩) (.of main_call3_call0_v3 : StableHlo.TRef sig ⟨S100000x128, .i1⟩) (cmpf .ogt),
    StableHlo.TRef.nullary (.of main_call3_call0_cst_1 : StableHlo.TRef sig ⟨S_, .f32⟩) (constant S_ .f32 0x00000000#32),
    StableHlo.TRef.unary (.of main_call3_call0_cst_1 : StableHlo.TRef sig ⟨S_, .f32⟩) (.of main_call3_call0_call0_v0 : StableHlo.TRef sig ⟨S_, .f32⟩) id,
    StableHlo.TRef.unary (.of main_call3_call0_call0_v0 : StableHlo.TRef sig ⟨S_, .f32⟩) (.of main_call3_call0_call0_v1 : StableHlo.TRef sig ⟨S100000x128, .f32⟩) (broadcastInDim S100000x128 ![] bcast_S_S100000x128),
    StableHlo.TRef.ternary (.of main_call3_call0_v3 : StableHlo.TRef sig ⟨S100000x128, .i1⟩) (.of main_call3_call0_call0_v1 : StableHlo.TRef sig ⟨S100000x128, .f32⟩) (.of main_v53 : StableHlo.TRef sig ⟨S100000x128, .f32⟩) (.of main_call3_call0_v4 : StableHlo.TRef sig ⟨S100000x128, .f32⟩) select,
    StableHlo.TRef.unary (.of main_call3_call0_v4 : StableHlo.TRef sig ⟨S100000x128, .f32⟩) (.of main_call3_call0_v5 : StableHlo.TRef sig ⟨S100000x128, .f32⟩) Host.expm1,
    StableHlo.TRef.unary (.of main_call3_cst : StableHlo.TRef sig ⟨S_, .f32⟩) (.of main_call3_call0_v6 : StableHlo.TRef sig ⟨S_, .f32⟩) id,
    StableHlo.TRef.unary (.of main_call3_call0_v6 : StableHlo.TRef sig ⟨S_, .f32⟩) (.of main_call3_call0_v7 : StableHlo.TRef sig ⟨S100000x128, .f32⟩) (broadcastInDim S100000x128 ![] bcast_S_S100000x128),
    StableHlo.TRef.binary (.of main_call3_call0_v7 : StableHlo.TRef sig ⟨S100000x128, .f32⟩) (.of main_call3_call0_v5 : StableHlo.TRef sig ⟨S100000x128, .f32⟩) (.of main_call3_call0_v8 : StableHlo.TRef sig ⟨S100000x128, .f32⟩) mulf,
    StableHlo.TRef.ternary (.of main_call3_call0_v1 : StableHlo.TRef sig ⟨S100000x128, .i1⟩) (.of main_v53 : StableHlo.TRef sig ⟨S100000x128, .f32⟩) (.of main_call3_call0_v8 : StableHlo.TRef sig ⟨S100000x128, .f32⟩) (.of main_call3_v0 : StableHlo.TRef sig ⟨S100000x128, .f32⟩) select,
    StableHlo.TRef.nullary (.of main_call3_cst_0 : StableHlo.TRef sig ⟨S_, .f32⟩) (constant S_ .f32 0x3F867D5F#32),
    StableHlo.TRef.unary (.of main_call3_cst_0 : StableHlo.TRef sig ⟨S_, .f32⟩) (.of main_call3_v1 : StableHlo.TRef sig ⟨S100000x128, .f32⟩) (broadcastInDim S100000x128 ![] bcast_S_S100000x128),
    StableHlo.TRef.binary (.of main_call3_v1 : StableHlo.TRef sig ⟨S100000x128, .f32⟩) (.of main_call3_v0 : StableHlo.TRef sig ⟨S100000x128, .f32⟩) (.of main_v54 : StableHlo.TRef sig ⟨S100000x128, .f32⟩) mulf ]
theorem p6_fresh : (p6 : List (HloOp τ sig (Elt F))).Forall fun op => op.fresh = ∅ := by
  simp only [List.Forall]; repeat' constructor
theorem p6_sub : (p6 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub ..⟩

/-- Layer 3: the normalized aggregation and its dense map (%55 … %74). -/
abbrev p7 : List (HloOp τ sig (Elt F)) :=
  [ StableHlo.unary main_v9 main_v55 (broadcastInDim S100000x1 ![0] bcast_S100000_S100000x1_0 : (⟨S100000, .f32⟩ : BufTy).Contents (Elt F) → (⟨S100000x1, .f32⟩ : BufTy).Contents (Elt F)),
    StableHlo.unary main_v55 main_v56 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v56 main_v57 (mulf : (⟨S100000x128, .f32⟩ : BufTy).Contents (Elt F) → (⟨S100000x128, .f32⟩ : BufTy).Contents (Elt F) → (⟨S100000x128, .f32⟩ : BufTy).Contents (Elt F)),
    StableHlo.nullary main_c_11 (constantI S_ 32 0#32),
    StableHlo.unary main_c_11 main_v58 (broadcastInDim S1600000 ![] bcast_S_S1600000 : (⟨S_, .i32⟩ : BufTy).Contents (Elt F) → (⟨S1600000, .i32⟩ : BufTy).Contents (Elt F)),
    StableHlo.binary main_arg2 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v60 (broadcastInDim S1600000 ![] bcast_S_S1600000 : (⟨S_, .i32⟩ : BufTy).Contents (Elt F) → (⟨S1600000, .i32⟩ : BufTy).Contents (Elt F)),
    StableHlo.binary main_arg2 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_arg2 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v57 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_13 (constant S_ .f32 0x00000000#32),
    StableHlo.unary main_cst_13 main_v65 (broadcastInDim S100000x128 ![] bcast_S_S100000x128 : (⟨S_, .f32⟩ : BufTy).Contents (Elt F) → (⟨S100000x128, .f32⟩ : BufTy).Contents (Elt F)),
    StableHlo.unary main_arg3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v68 (broadcastInDim S100000x1 ![0] bcast_S100000_S100000x1_0 : (⟨S100000, .f32⟩ : BufTy).Contents (Elt F) → (⟨S100000x1, .f32⟩ : BufTy).Contents (Elt F)),
    StableHlo.unary main_v68 main_v69 (broadcastInDim S100000x128 ![0, 1] bcast_S100000x1_S100000x128_0_1 : (⟨S100000x1, .f32⟩ : BufTy).Contents (Elt F) → (⟨S100000x128, .f32⟩ : BufTy).Contents (Elt F)),
    StableHlo.binary main_v67 main_v69 main_v70 (mulf : (⟨S100000x128, .f32⟩ : BufTy).Contents (Elt F) → (⟨S100000x128, .f32⟩ : BufTy).Contents (Elt F) → (⟨S100000x128, .f32⟩ : BufTy).Contents (Elt F)),
    StableHlo.binary main_v70 main_arg9 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)) ]
theorem p7_fresh : (p7 : List (HloOp τ sig (Elt F))).Forall fun op => op.fresh = ∅ := by
  simp only [List.Forall]; repeat' constructor
theorem p7_sub : (p7 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- The readout (per-graph mean beside the graph features) and the head's first dense map (%75 … %90). -/
abbrev p8 : List (HloOp τ sig (Elt F)) :=
  [ StableHlo.nullary main_cst_14 (constant S_ .f32 0x00000000#32),
    StableHlo.unary main_cst_14 main_v75 (broadcastInDim S512x128 ![] bcast_S_S512x128 : (⟨S_, .f32⟩ : BufTy).Contents (Elt F) → (⟨S512x128, .f32⟩ : BufTy).Contents (Elt F)),
    StableHlo.unary main_arg4 main_v76 (broadcastInDim S100000x1 ![0] bcast_S100000_S100000x1_0 : (⟨S100000, .i32⟩ : BufTy).Contents (Elt F) → (⟨S100000x1, .i32⟩ : BufTy).Contents (Elt F)),
    StableHlo.ternary main_v75 main_v76 main_v74 main_v77 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_15 (constant S_ .f32 0x3F800000#32),
    StableHlo.unary main_cst_15 main_v78 (broadcastInDim S100000 ![] bcast_S_S100000 : (⟨S_, .f32⟩ : BufTy).Contents (Elt F) → (⟨S100000, .f32⟩ : BufTy).Contents (Elt F)),
    StableHlo.nullary main_cst_16 (constant S_ .f32 0x00000000#32),
    StableHlo.unary main_cst_16 main_v79 (broadcastInDim S512 ![] bcast_S_S512 : (⟨S_, .f32⟩ : BufTy).Contents (Elt F) → (⟨S512, .f32⟩ : BufTy).Contents (Elt F)),
    StableHlo.unary main_arg4 main_v80 (broadcastInDim S100000x1 ![0] bcast_S100000_S100000x1_0 : (⟨S100000, .i32⟩ : BufTy).Contents (Elt F) → (⟨S100000x1, .i32⟩ : BufTy).Contents (Elt F)),
    StableHlo.ternary main_v79 main_v80 main_v78 main_v81 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_17 (constant S_ .f32 0x3F800000#32),
    StableHlo.TRef.unary (.of main_cst_17 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S512, .f32⟩) (broadcastInDim S512 ![] bcast_S_S512),
    StableHlo.TRef.binary (.of main_call4_v1 : StableHlo.TRef sig ⟨S512, .f32⟩) (.of main_v81 : StableHlo.TRef sig ⟨S512, .f32⟩) (.of main_v82 : StableHlo.TRef sig ⟨S512, .f32⟩) maximumf,
    StableHlo.unary main_v82 main_v83 (broadcastInDim S512x1 ![0] bcast_S512_S512x1_0 : (⟨S512, .f32⟩ : BufTy).Contents (Elt F) → (⟨S512x1, .f32⟩ : BufTy).Contents (Elt F)),
    StableHlo.unary main_v83 main_v84 (broadcastInDim S512x128 ![0, 1] bcast_S512x1_S512x128_0_1 : (⟨S512x1, .f32⟩ : BufTy).Contents (Elt F) → (⟨S512x128, .f32⟩ : BufTy).Contents (Elt F)),
    StableHlo.binary main_v77 main_v84 main_v85 (Host.divf : (⟨S512x128, .f32⟩ : BufTy).Contents (Elt F) → (⟨S512x128, .f32⟩ : BufTy).Contents (Elt F) → (⟨S512x128, .f32⟩ : BufTy).Contents (Elt F)),
    StableHlo.binary main_v85 main_arg1 main_v86 ((fun a b => concatenate S512x136 1 [⟨S512x128, a⟩, ⟨S512x8, b⟩] concatenates_S512x128_S512x8_S512x136_d1) : (⟨S512x128, .f32⟩ : BufTy).Contents (Elt F) → (⟨S512x8, .f32⟩ : BufTy).Contents (Elt F) → (⟨S512x136, .f32⟩ : BufTy).Contents (Elt F)),
    StableHlo.binary main_v86 main_arg11 main_v87 ((fun l r => Host.dotGeneral dot_S512x136_S136x256_S512x256_1_0_0_1_n_n none l r) : (⟨S512x136, .f32⟩ : BufTy).Contents (Elt F) → (⟨S136x256, .f32⟩ : BufTy).Contents (Elt F) → (⟨S512x256, .f32⟩ : BufTy).Contents (Elt F)),
    StableHlo.unary main_arg12 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S512x256 ![0, 1] bcast_S1x256_S512x256_0_1 : (⟨S1x256, .f32⟩ : BufTy).Contents (Elt F) → (⟨S512x256, .f32⟩ : BufTy).Contents (Elt F)),
    StableHlo.binary main_v87 main_v89 main_v90 (addf : (⟨S512x256, .f32⟩ : BufTy).Contents (Elt F) → (⟨S512x256, .f32⟩ : BufTy).Contents (Elt F) → (⟨S512x256, .f32⟩ : BufTy).Contents (Elt F)) ]
theorem p8_fresh : (p8 : List (HloOp τ sig (Elt F))).Forall fun op => op.fresh = ∅ := by
  simp only [List.Forall]; repeat' constructor
theorem p8_sub : (p8 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- The head's first selu (%91). -/
abbrev p9 : List (HloOp τ sig (Elt F)) :=
  [ StableHlo.TRef.nullary (.of main_call5_cst : StableHlo.TRef sig ⟨S_, .f32⟩) (constant S_ .f32 0x3FD62D7D#32),
    StableHlo.TRef.nullary (.of main_call5_call0_cst : StableHlo.TRef sig ⟨S_, .f32⟩) (constant S_ .f32 0x00000000#32),
    StableHlo.TRef.unary (.of main_call5_call0_cst : StableHlo.TRef sig ⟨S_, .f32⟩) (.of main_call5_call0_v0 : StableHlo.TRef sig ⟨S512x256, .f32⟩) (broadcastInDim S512x256 ![] bcast_S_S512x256),
    StableHlo.TRef.binary (.of main_v90 : StableHlo.TRef sig ⟨S512x256, .f32⟩) (.of main_call5_call0_v0 : StableHlo.TRef sig ⟨S512x256, .f32⟩) (.of main_call5_call0_v1 : StableHlo.TRef sig ⟨S512x256, .i1⟩) (cmpf .ogt),
    StableHlo.TRef.nullary (.of main_call5_call0_cst_0 : StableHlo.TRef sig ⟨S_, .f32⟩) (constant S_ .f32 0x00000000#32),
    StableHlo.TRef.unary (.of main_call5_call0_cst_0 : StableHlo.TRef sig ⟨S_, .f32⟩) (.of main_call5_call0_v2 : StableHlo.TRef sig ⟨S512x256, .f32⟩) (broadcastInDim S512x256 ![] bcast_S_S512x256),
    StableHlo.TRef.binary (.of main_v90 : StableHlo.TRef sig ⟨S512x256, .f32⟩) (.of main_call5_call0_v2 : StableHlo.TRef sig ⟨S512x256, .f32⟩) (.of main_call5_call0_v3 : StableHlo.TRef sig ⟨S512x256, .i1⟩) (cmpf .ogt),
    StableHlo.TRef.nullary (.of main_call5_call0_cst_1 : StableHlo.TRef sig ⟨S_, .f32⟩) (constant S_ .f32 0x00000000#32),
    StableHlo.TRef.unary (.of main_call5_call0_cst_1 : StableHlo.TRef sig ⟨S_, .f32⟩) (.of main_call5_call0_call0_v0 : StableHlo.TRef sig ⟨S_, .f32⟩) id,
    StableHlo.TRef.unary (.of main_call5_call0_call0_v0 : StableHlo.TRef sig ⟨S_, .f32⟩) (.of main_call5_call0_call0_v1 : StableHlo.TRef sig ⟨S512x256, .f32⟩) (broadcastInDim S512x256 ![] bcast_S_S512x256),
    StableHlo.TRef.ternary (.of main_call5_call0_v3 : StableHlo.TRef sig ⟨S512x256, .i1⟩) (.of main_call5_call0_call0_v1 : StableHlo.TRef sig ⟨S512x256, .f32⟩) (.of main_v90 : StableHlo.TRef sig ⟨S512x256, .f32⟩) (.of main_call5_call0_v4 : StableHlo.TRef sig ⟨S512x256, .f32⟩) select,
    StableHlo.TRef.unary (.of main_call5_call0_v4 : StableHlo.TRef sig ⟨S512x256, .f32⟩) (.of main_call5_call0_v5 : StableHlo.TRef sig ⟨S512x256, .f32⟩) Host.expm1,
    StableHlo.TRef.unary (.of main_call5_cst : StableHlo.TRef sig ⟨S_, .f32⟩) (.of main_call5_call0_v6 : StableHlo.TRef sig ⟨S_, .f32⟩) id,
    StableHlo.TRef.unary (.of main_call5_call0_v6 : StableHlo.TRef sig ⟨S_, .f32⟩) (.of main_call5_call0_v7 : StableHlo.TRef sig ⟨S512x256, .f32⟩) (broadcastInDim S512x256 ![] bcast_S_S512x256),
    StableHlo.TRef.binary (.of main_call5_call0_v7 : StableHlo.TRef sig ⟨S512x256, .f32⟩) (.of main_call5_call0_v5 : StableHlo.TRef sig ⟨S512x256, .f32⟩) (.of main_call5_call0_v8 : StableHlo.TRef sig ⟨S512x256, .f32⟩) mulf,
    StableHlo.TRef.ternary (.of main_call5_call0_v1 : StableHlo.TRef sig ⟨S512x256, .i1⟩) (.of main_v90 : StableHlo.TRef sig ⟨S512x256, .f32⟩) (.of main_call5_call0_v8 : StableHlo.TRef sig ⟨S512x256, .f32⟩) (.of main_call5_v0 : StableHlo.TRef sig ⟨S512x256, .f32⟩) select,
    StableHlo.TRef.nullary (.of main_call5_cst_0 : StableHlo.TRef sig ⟨S_, .f32⟩) (constant S_ .f32 0x3F867D5F#32),
    StableHlo.TRef.unary (.of main_call5_cst_0 : StableHlo.TRef sig ⟨S_, .f32⟩) (.of main_call5_v1 : StableHlo.TRef sig ⟨S512x256, .f32⟩) (broadcastInDim S512x256 ![] bcast_S_S512x256),
    StableHlo.TRef.binary (.of main_call5_v1 : StableHlo.TRef sig ⟨S512x256, .f32⟩) (.of main_call5_v0 : StableHlo.TRef sig ⟨S512x256, .f32⟩) (.of main_v91 : StableHlo.TRef sig ⟨S512x256, .f32⟩) mulf ]
theorem p9_fresh : (p9 : List (HloOp τ sig (Elt F))).Forall fun op => op.fresh = ∅ := by
  simp only [List.Forall]; repeat' constructor
theorem p9_sub : (p9 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub ..⟩

/-- The head's second dense map (%92 … %95). -/
abbrev p10 : List (HloOp τ sig (Elt F)) :=
  [ StableHlo.binary main_v91 main_arg13 main_v92 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    StableHlo.unary main_arg14 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S512x128 ![0, 1] bcast_S1x128_S512x128_0_1 : (⟨S1x128, .f32⟩ : BufTy).Contents (Elt F) → (⟨S512x128, .f32⟩ : BufTy).Contents (Elt F)),
    StableHlo.binary main_v92 main_v94 main_v95 (addf : (⟨S512x128, .f32⟩ : BufTy).Contents (Elt F) → (⟨S512x128, .f32⟩ : BufTy).Contents (Elt F) → (⟨S512x128, .f32⟩ : BufTy).Contents (Elt F)) ]
theorem p10_fresh : (p10 : List (HloOp τ sig (Elt F))).Forall fun op => op.fresh = ∅ := by
  simp only [List.Forall]; repeat' constructor
theorem p10_sub : (p10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- The head's second selu (%96). -/
abbrev p11 : List (HloOp τ sig (Elt F)) :=
  [ StableHlo.TRef.nullary (.of main_call6_cst : StableHlo.TRef sig ⟨S_, .f32⟩) (constant S_ .f32 0x3FD62D7D#32),
    StableHlo.TRef.nullary (.of main_call6_call0_cst : StableHlo.TRef sig ⟨S_, .f32⟩) (constant S_ .f32 0x00000000#32),
    StableHlo.TRef.unary (.of main_call6_call0_cst : StableHlo.TRef sig ⟨S_, .f32⟩) (.of main_call6_call0_v0 : StableHlo.TRef sig ⟨S512x128, .f32⟩) (broadcastInDim S512x128 ![] bcast_S_S512x128),
    StableHlo.TRef.binary (.of main_v95 : StableHlo.TRef sig ⟨S512x128, .f32⟩) (.of main_call6_call0_v0 : StableHlo.TRef sig ⟨S512x128, .f32⟩) (.of main_call6_call0_v1 : StableHlo.TRef sig ⟨S512x128, .i1⟩) (cmpf .ogt),
    StableHlo.TRef.nullary (.of main_call6_call0_cst_0 : StableHlo.TRef sig ⟨S_, .f32⟩) (constant S_ .f32 0x00000000#32),
    StableHlo.TRef.unary (.of main_call6_call0_cst_0 : StableHlo.TRef sig ⟨S_, .f32⟩) (.of main_call6_call0_v2 : StableHlo.TRef sig ⟨S512x128, .f32⟩) (broadcastInDim S512x128 ![] bcast_S_S512x128),
    StableHlo.TRef.binary (.of main_v95 : StableHlo.TRef sig ⟨S512x128, .f32⟩) (.of main_call6_call0_v2 : StableHlo.TRef sig ⟨S512x128, .f32⟩) (.of main_call6_call0_v3 : StableHlo.TRef sig ⟨S512x128, .i1⟩) (cmpf .ogt),
    StableHlo.TRef.nullary (.of main_call6_call0_cst_1 : StableHlo.TRef sig ⟨S_, .f32⟩) (constant S_ .f32 0x00000000#32),
    StableHlo.TRef.unary (.of main_call6_call0_cst_1 : StableHlo.TRef sig ⟨S_, .f32⟩) (.of main_call6_call0_call0_v0 : StableHlo.TRef sig ⟨S_, .f32⟩) id,
    StableHlo.TRef.unary (.of main_call6_call0_call0_v0 : StableHlo.TRef sig ⟨S_, .f32⟩) (.of main_call6_call0_call0_v1 : StableHlo.TRef sig ⟨S512x128, .f32⟩) (broadcastInDim S512x128 ![] bcast_S_S512x128),
    StableHlo.TRef.ternary (.of main_call6_call0_v3 : StableHlo.TRef sig ⟨S512x128, .i1⟩) (.of main_call6_call0_call0_v1 : StableHlo.TRef sig ⟨S512x128, .f32⟩) (.of main_v95 : StableHlo.TRef sig ⟨S512x128, .f32⟩) (.of main_call6_call0_v4 : StableHlo.TRef sig ⟨S512x128, .f32⟩) select,
    StableHlo.TRef.unary (.of main_call6_call0_v4 : StableHlo.TRef sig ⟨S512x128, .f32⟩) (.of main_call6_call0_v5 : StableHlo.TRef sig ⟨S512x128, .f32⟩) Host.expm1,
    StableHlo.TRef.unary (.of main_call6_cst : StableHlo.TRef sig ⟨S_, .f32⟩) (.of main_call6_call0_v6 : StableHlo.TRef sig ⟨S_, .f32⟩) id,
    StableHlo.TRef.unary (.of main_call6_call0_v6 : StableHlo.TRef sig ⟨S_, .f32⟩) (.of main_call6_call0_v7 : StableHlo.TRef sig ⟨S512x128, .f32⟩) (broadcastInDim S512x128 ![] bcast_S_S512x128),
    StableHlo.TRef.binary (.of main_call6_call0_v7 : StableHlo.TRef sig ⟨S512x128, .f32⟩) (.of main_call6_call0_v5 : StableHlo.TRef sig ⟨S512x128, .f32⟩) (.of main_call6_call0_v8 : StableHlo.TRef sig ⟨S512x128, .f32⟩) mulf,
    StableHlo.TRef.ternary (.of main_call6_call0_v1 : StableHlo.TRef sig ⟨S512x128, .i1⟩) (.of main_v95 : StableHlo.TRef sig ⟨S512x128, .f32⟩) (.of main_call6_call0_v8 : StableHlo.TRef sig ⟨S512x128, .f32⟩) (.of main_call6_v0 : StableHlo.TRef sig ⟨S512x128, .f32⟩) select,
    StableHlo.TRef.nullary (.of main_call6_cst_0 : StableHlo.TRef sig ⟨S_, .f32⟩) (constant S_ .f32 0x3F867D5F#32),
    StableHlo.TRef.unary (.of main_call6_cst_0 : StableHlo.TRef sig ⟨S_, .f32⟩) (.of main_call6_v1 : StableHlo.TRef sig ⟨S512x128, .f32⟩) (broadcastInDim S512x128 ![] bcast_S_S512x128),
    StableHlo.TRef.binary (.of main_call6_v1 : StableHlo.TRef sig ⟨S512x128, .f32⟩) (.of main_call6_v0 : StableHlo.TRef sig ⟨S512x128, .f32⟩) (.of main_v96 : StableHlo.TRef sig ⟨S512x128, .f32⟩) mulf ]
theorem p11_fresh : (p11 : List (HloOp τ sig (Elt F))).Forall fun op => op.fresh = ∅ := by
  simp only [List.Forall]; repeat' constructor
theorem p11_sub : (p11 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub ..⟩

/-- The head's last product and its bias broadcast (%97 … %99). -/
abbrev p12 : List (HloOp τ sig (Elt F)) :=
  [ StableHlo.binary main_v96 main_arg15 main_v97 ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    StableHlo.unary main_arg16 main_v98 (broadcastInDim S1x1 ![1] bcast_S1_S1x1_1 : (⟨S1, .f32⟩ : BufTy).Contents (Elt F) → (⟨S1x1, .f32⟩ : BufTy).Contents (Elt F)),
    StableHlo.unary main_v98 main_v99 (broadcastInDim S512x1 ![0, 1] bcast_S1x1_S512x1_0_1 : (⟨S1x1, .f32⟩ : BufTy).Contents (Elt F) → (⟨S512x1, .f32⟩ : BufTy).Contents (Elt F)) ]
theorem p12_fresh : (p12 : List (HloOp τ sig (Elt F))).Forall fun op => op.fresh = ∅ := by
  simp only [List.Forall]; repeat' constructor
theorem p12_sub : (p12 : List (HloOp τ sig (Elt F))).Forall fun op => op.bufs ⊆ StableHlo.tcRefs τ sig :=
  ⟨StableHlo.binary_bufs_sub .., StableHlo.unary_bufs_sub .., StableHlo.unary_bufs_sub ..⟩

/-- The bias added and the column flattened (%100, %101). -/
abbrev p13 : List (HloOp τ sig (Elt F)) :=
  [ StableHlo.binary main_v97 main_v99 main_v100 (addf : (⟨S512x1, .f32⟩ : BufTy).Contents (Elt F) → (⟨S512x1, .f32⟩ : BufTy).Contents (Elt F) → (⟨S512x1, .f32⟩ : BufTy).Contents (Elt F)),
    StableHlo.reshape main_v100 main_v101 rfl shapeCasts_S512x1_S512 ]
theorem p13_fresh : (p13 : List (HloOp τ sig (Elt F))).Forall fun op => op.fresh = ∅ := by
  simp only [List.Forall]; repeat' constructor
theorem p13_sub : (p13 : List (HloOp τ sig (Elt F))).Forall fun op => op.bufs ⊆ StableHlo.tcRefs τ sig :=
  ⟨StableHlo.binary_bufs_sub .., StableHlo.reshape_bufs_sub ..⟩

/-! ## The line -/

/-- The operations of @main's first window of statements (1 … 60). -/
abbrev ops0 : List (HloOp τ sig (Elt F)) := p1 ++ (p2 ++ (p3 ++ p4))
/-- The operations of @main's second window (61 … 120). -/
abbrev ops1 : List (HloOp τ sig (Elt F)) := p5 ++ (p6 ++ (p7 ++ (p8 ++ (p9 ++ (p10 ++ (p11 ++ p12))))))
/-- The operations of @main's third window (121 … 123). -/
abbrev ops2 : List (HloOp τ sig (Elt F)) := p13
/-- @main's 200 operations in order, the calls' bodies at their call sites. -/
abbrev ops : List (HloOp τ sig (Elt F)) := ops0 ++ (ops1 ++ ops2)

set_option maxRecDepth 8192 in
set_option maxHeartbeats 4000000 in
/-- The first window is its straight line: the callees' definitions unfolded at their calls, both sides are one
    chain of steps once sequencing is reassociated. -/
theorem part0_eq (c : Dev nD) : main_part0 (F := F) c = StableHlo.seq ops0 := by
  simp only [ops0, StableHlo.seq_append, p1, p2, p3, p4, main_part0, fn_clip.body, fn_where.body, fn_where_0.body, fn_elu.body, fn_selu.body, fn_clip_1.body, fn_where_4.body, fn_where_5.body, fn_elu_3.body, fn_selu_2.body, fn_where_8.body, fn_where_9.body, fn_elu_7.body, fn_selu_6.body, StableHlo.seq, bind_assoc, pure_bind]
  rfl

set_option maxRecDepth 8192 in
set_option maxHeartbeats 4000000 in
/-- The second window likewise. -/
theorem part1_eq (c : Dev nD) : main_part1 (F := F) c = StableHlo.seq ops1 := by
  simp only [ops1, StableHlo.seq_append, p5, p6, p7, p8, p9, p10, p11, p12, main_part1, fn_clip.body, fn_where.body, fn_where_0.body, fn_elu.body, fn_selu.body, fn_clip_1.body, fn_where_4.body, fn_where_5.body, fn_elu_3.body, fn_selu_2.body, fn_where_8.body, fn_where_9.body, fn_elu_7.body, fn_selu_6.body, StableHlo.seq, bind_assoc, pure_bind]
  rfl

/-- The third window likewise. -/
theorem part2_eq (c : Dev nD) : main_part2 (F := F) c = StableHlo.seq ops2 := by
  simp only [ops2, p13, main_part2, StableHlo.seq, bind_assoc, pure_bind]

/-- @main is the line. -/
theorem main_eq (c : Dev nD) : main (F := F) c = StableHlo.seq ops := by
  simp only [ops, StableHlo.seq_append, main, part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ StableHlo.tcRefs τ sig := by
  simp only [ops, ops0, ops1, ops2, List.forall_append]
  exact ⟨⟨p1_sub, p2_sub, p3_sub, p4_sub⟩, ⟨p5_sub, p6_sub, p7_sub, p8_sub, p9_sub, p10_sub, p11_sub, p12_sub⟩, p13_sub⟩

/-- Every operation of the line determines its results. -/
theorem ops_fresh : ∀ op ∈ (ops : List (HloOp τ sig (Elt F))), op.fresh = ∅ := by
  refine List.forall_iff_forall_mem.mp ?_
  simp only [ops, ops0, ops1, ops2, List.forall_append]
  exact ⟨⟨p1_fresh, p2_fresh, p3_fresh, p4_fresh⟩, ⟨p5_fresh, p6_fresh, p7_fresh, p8_fresh, p9_fresh, p10_fresh, p11_fresh, p12_fresh⟩, p13_fresh⟩

/-- At the compiled mesh, for any float values, from any memory with zero counters: every weakly fair execution of
    @main on the TensorCores terminates, and every final state has each TensorCore buffer at the line's fold over
    the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ (fun _ => ops_fresh)

end Cert.ReferenceIdeal.HandRun

end
-- ==== Proof.RefRun.lean ====
/-
  What the reference program leaves in its result buffer: the network of Spec.lean at the argument arrays.

  The line of operations (RefOps.lean) is folded piece by piece. For each of the thirteen pieces: the buffers it
  writes (so every other buffer keeps its contents through it), and what it leaves in the buffer the next stage
  reads, as the stage function of Spec.lean applied to the contents before the piece — a computation over the
  piece's operations, the array primitives kept closed. The valuations `W1 … W13` are the contents after the first
  k pieces; reading the result buffer in `W13` and following each stage's inputs back through the pieces gives
  `network` of the launch contents of the seventeen arguments, none of which any piece writes.
-/
import proofs.«134255_j26018911879219_1_alg».proof.Proof.RefOps
import proofs.«134255_j26018911879219_1_alg».proof.Proof.Spec

noncomputable section

namespace Cert.ReferenceIdeal.HandRun

open Idealize.ShloMosaic Idealize.ShloMosaic.TcCoe Idealize.SL.Sem Cert.ReferenceIdeal Cert.ReferenceIdeal.Facts₀ Cert.Gcn
open Idealize.ShloMosaic.StableHlo (after after_cons after_nil after_of_writes_sub
  nullary_result' unary_result' binary_result' ternary_result' quaternary_result' reshape_result' nary4_result' nary_result'
  unaryIndexed_result' binaryIndexed_result' nullary_result_ne' unary_result_ne' binary_result_ne' ternary_result_ne'
  quaternary_result_ne' reshape_result_ne' nary_result_ne' unaryIndexed_result_ne' binaryIndexed_result_ne')

variable {F : FTy → Type} [FloatOps F]

/-- The fold over two lines one after the other is the fold over the second from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The rows scaled by the source norm, gathered along the edge sources and summed into the edge destinations:
    the aggregation before its scaling by the destination norm. -/
def scatterSum (x : FA F S100000x128) (ns : FA F S100000) (src dst : IA F S1600000) : FA F S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 (mulf x (colBcast ns)) (wrapIdx src))

theorem aggregate_eq (x : FA F S100000x128) (ns nd : FA F S100000) (src dst : IA F S1600000) :
    aggregate x ns nd src dst = mulf (scatterSum x ns src dst) (colBcast nd) := rfl

/-! ## What each piece writes, and so keeps -/

/-- The buffers piece 1 writes. -/
abbrev p1_W : List (Ref sig .tc) := [main_cst, main_v0, main_cst_0, main_v1, main_v2, main_v3, main_cst_1, main_v4, main_v5, main_v6, main_cst_2, main_call0_v0, main_call0_v1, main_v7, main_cst_3, main_v8, main_v9, main_cst_4, main_call1_v0, main_call1_v1, main_v10, main_cst_5, main_v11, main_v12]
theorem p1_writes : (p1 : List (HloOp τ sig (Elt F))).Forall fun op => op.writes ⊆ (p1_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p1_keep (X : Valuation τ sig (Elt F)) (r : Ref sig .tc) (h : r ∉ p1_W) :
    after p1 X (Proc.devRef .tc r) = X (Proc.devRef .tc r) :=
  after_of_writes_sub p1 X p1_writes h

/-- The buffers piece 2 writes. -/
abbrev p2_W : List (Ref sig .tc) := [main_v13, main_v14, main_v15, main_c, main_v16, main_v17, main_c_6, main_v18, main_v19, main_v20, main_v21, main_v22, main_cst_7, main_v23, main_v24, main_v25, main_v26, main_v27, main_v28, main_v29, main_v30, main_v31, main_v32]
theorem p2_writes : (p2 : List (HloOp τ sig (Elt F))).Forall fun op => op.writes ⊆ (p2_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p2_keep (X : Valuation τ sig (Elt F)) (r : Ref sig .tc) (h : r ∉ p2_W) :
    after p2 X (Proc.devRef .tc r) = X (Proc.devRef .tc r) :=
  after_of_writes_sub p2 X p2_writes h

/-- The buffers piece 3 writes. -/
abbrev p3_W : List (Ref sig .tc) := [main_call2_cst, main_call2_call0_cst, main_call2_call0_v0, main_call2_call0_v1, main_call2_call0_cst_0, main_call2_call0_v2, main_call2_call0_v3, main_call2_call0_cst_1, main_call2_call0_call0_v0, main_call2_call0_call0_v1, main_call2_call0_v4, main_call2_call0_v5, main_call2_call0_v6, main_call2_call0_v7, main_call2_call0_v8, main_call2_v0, main_call2_cst_0, main_call2_v1, main_v33]
theorem p3_writes : (p3 : List (HloOp τ sig (Elt F))).Forall fun op => op.writes ⊆ (p3_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p3_keep (X : Valuation τ sig (Elt F)) (r : Ref sig .tc) (h : r ∉ p3_W) :
    after p3 X (Proc.devRef .tc r) = X (Proc.devRef .tc r) :=
  after_of_writes_sub p3 X p3_writes h

/-- The buffers piece 4 writes. -/
abbrev p4_W : List (Ref sig .tc) := [main_v34, main_v35, main_v36, main_c_8, main_v37, main_v38, main_c_9, main_v39, main_v40, main_v41, main_v42, main_v43, main_cst_10, main_v44, main_v45, main_v46]
theorem p4_writes : (p4 : List (HloOp τ sig (Elt F))).Forall fun op => op.writes ⊆ (p4_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p4_keep (X : Valuation τ sig (Elt F)) (r : Ref sig .tc) (h : r ∉ p4_W) :
    after p4 X (Proc.devRef .tc r) = X (Proc.devRef .tc r) :=
  after_of_writes_sub p4 X p4_writes h

/-- The buffers piece 5 writes. -/
abbrev p5_W : List (Ref sig .tc) := [main_v47, main_v48, main_v49, main_v50, main_v51, main_v52, main_v53]
theorem p5_writes : (p5 : List (HloOp τ sig (Elt F))).Forall fun op => op.writes ⊆ (p5_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p5_keep (X : Valuation τ sig (Elt F)) (r : Ref sig .tc) (h : r ∉ p5_W) :
    after p5 X (Proc.devRef .tc r) = X (Proc.devRef .tc r) :=
  after_of_writes_sub p5 X p5_writes h

/-- The buffers piece 6 writes. -/
abbrev p6_W : List (Ref sig .tc) := [main_call3_cst, main_call3_call0_cst, main_call3_call0_v0, main_call3_call0_v1, main_call3_call0_cst_0, main_call3_call0_v2, main_call3_call0_v3, main_call3_call0_cst_1, main_call3_call0_call0_v0, main_call3_call0_call0_v1, main_call3_call0_v4, main_call3_call0_v5, main_call3_call0_v6, main_call3_call0_v7, main_call3_call0_v8, main_call3_v0, main_call3_cst_0, main_call3_v1, main_v54]
theorem p6_writes : (p6 : List (HloOp τ sig (Elt F))).Forall fun op => op.writes ⊆ (p6_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p6_keep (X : Valuation τ sig (Elt F)) (r : Ref sig .tc) (h : r ∉ p6_W) :
    after p6 X (Proc.devRef .tc r) = X (Proc.devRef .tc r) :=
  after_of_writes_sub p6 X p6_writes h

/-- The buffers piece 7 writes. -/
abbrev p7_W : List (Ref sig .tc) := [main_v55, main_v56, main_v57, main_c_11, main_v58, main_v59, main_c_12, main_v60, main_v61, main_v62, main_v63, main_v64, main_cst_13, main_v65, main_v66, main_v67, main_v68, main_v69, main_v70, main_v71, main_v72, main_v73, main_v74]
theorem p7_writes : (p7 : List (HloOp τ sig (Elt F))).Forall fun op => op.writes ⊆ (p7_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p7_keep (X : Valuation τ sig (Elt F)) (r : Ref sig .tc) (h : r ∉ p7_W) :
    after p7 X (Proc.devRef .tc r) = X (Proc.devRef .tc r) :=
  after_of_writes_sub p7 X p7_writes h

/-- The buffers piece 8 writes. -/
abbrev p8_W : List (Ref sig .tc) := [main_cst_14, main_v75, main_v76, main_v77, main_cst_15, main_v78, main_cst_16, main_v79, main_v80, main_v81, main_cst_17, main_call4_v0, main_call4_v1, main_v82, main_v83, main_v84, main_v85, main_v86, main_v87, main_v88, main_v89, main_v90]
theorem p8_writes : (p8 : List (HloOp τ sig (Elt F))).Forall fun op => op.writes ⊆ (p8_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p8_keep (X : Valuation τ sig (Elt F)) (r : Ref sig .tc) (h : r ∉ p8_W) :
    after p8 X (Proc.devRef .tc r) = X (Proc.devRef .tc r) :=
  after_of_writes_sub p8 X p8_writes h

/-- The buffers piece 9 writes. -/
abbrev p9_W : List (Ref sig .tc) := [main_call5_cst, main_call5_call0_cst, main_call5_call0_v0, main_call5_call0_v1, main_call5_call0_cst_0, main_call5_call0_v2, main_call5_call0_v3, main_call5_call0_cst_1, main_call5_call0_call0_v0, main_call5_call0_call0_v1, main_call5_call0_v4, main_call5_call0_v5, main_call5_call0_v6, main_call5_call0_v7, main_call5_call0_v8, main_call5_v0, main_call5_cst_0, main_call5_v1, main_v91]
theorem p9_writes : (p9 : List (HloOp τ sig (Elt F))).Forall fun op => op.writes ⊆ (p9_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p9_keep (X : Valuation τ sig (Elt F)) (r : Ref sig .tc) (h : r ∉ p9_W) :
    after p9 X (Proc.devRef .tc r) = X (Proc.devRef .tc r) :=
  after_of_writes_sub p9 X p9_writes h

/-- The buffers piece 10 writes. -/
abbrev p10_W : List (Ref sig .tc) := [main_v92, main_v93, main_v94, main_v95]
theorem p10_writes : (p10 : List (HloOp τ sig (Elt F))).Forall fun op => op.writes ⊆ (p10_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p10_keep (X : Valuation τ sig (Elt F)) (r : Ref sig .tc) (h : r ∉ p10_W) :
    after p10 X (Proc.devRef .tc r) = X (Proc.devRef .tc r) :=
  after_of_writes_sub p10 X p10_writes h

/-- The buffers piece 11 writes. -/
abbrev p11_W : List (Ref sig .tc) := [main_call6_cst, main_call6_call0_cst, main_call6_call0_v0, main_call6_call0_v1, main_call6_call0_cst_0, main_call6_call0_v2, main_call6_call0_v3, main_call6_call0_cst_1, main_call6_call0_call0_v0, main_call6_call0_call0_v1, main_call6_call0_v4, main_call6_call0_v5, main_call6_call0_v6, main_call6_call0_v7, main_call6_call0_v8, main_call6_v0, main_call6_cst_0, main_call6_v1, main_v96]
theorem p11_writes : (p11 : List (HloOp τ sig (Elt F))).Forall fun op => op.writes ⊆ (p11_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p11_keep (X : Valuation τ sig (Elt F)) (r : Ref sig .tc) (h : r ∉ p11_W) :
    after p11 X (Proc.devRef .tc r) = X (Proc.devRef .tc r) :=
  after_of_writes_sub p11 X p11_writes h

/-- The buffers piece 12 writes. -/
abbrev p12_W : List (Ref sig .tc) := [main_v97, main_v98, main_v99]
theorem p12_writes : (p12 : List (HloOp τ sig (Elt F))).Forall fun op => op.writes ⊆ (p12_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p12_keep (X : Valuation τ sig (Elt F)) (r : Ref sig .tc) (h : r ∉ p12_W) :
    after p12 X (Proc.devRef .tc r) = X (Proc.devRef .tc r) :=
  after_of_writes_sub p12 X p12_writes h

/-- The buffers piece 13 writes. -/
abbrev p13_W : List (Ref sig .tc) := [main_v100, main_v101]
theorem p13_writes : (p13 : List (HloOp τ sig (Elt F))).Forall fun op => op.writes ⊆ (p13_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩
theorem p13_keep (X : Valuation τ sig (Elt F)) (r : Ref sig .tc) (h : r ∉ p13_W) :
    after p13 X (Proc.devRef .tc r) = X (Proc.devRef .tc r) :=
  after_of_writes_sub p13 X p13_writes h

/-! ## What each piece computes

Each by one pass over the piece's operations: an operation's result at its own buffer is its function of the contents it
reads, at any other buffer what was there; what is left is the stage function's own text (or nothing). -/

set_option maxRecDepth 8192 in
set_option maxHeartbeats 2000000 in
/-- The source norm. -/
theorem p1_v9 (X : Valuation τ sig (Elt F)) :
    after p1 X (main_v9 : DevRef τ sig) = degNorm (X (main_arg2 : DevRef τ sig)) := by
  simp only [p1]
  after_results_simp
  rfl

set_option maxRecDepth 8192 in
set_option maxHeartbeats 2000000 in
/-- The destination norm. -/
theorem p1_v12 (X : Valuation τ sig (Elt F)) :
    after p1 X (main_v12 : DevRef τ sig) = degNorm (X (main_arg3 : DevRef τ sig)) := by
  simp only [p1]
  after_results_simp
  rfl

set_option maxRecDepth 8192 in
set_option maxHeartbeats 2000000 in
/-- Layer 1 before its selu. -/
theorem p2_v32 (X : Valuation τ sig (Elt F)) :
    after p2 X (main_v32 : DevRef τ sig) = denseNodes (aggregate (X (main_arg0 : DevRef τ sig)) (X (main_v9 : DevRef τ sig)) (X (main_v12 : DevRef τ sig)) (X (main_arg2 : DevRef τ sig)) (X (main_arg3 : DevRef τ sig))) (X (main_arg5 : DevRef τ sig)) (X (main_arg6 : DevRef τ sig)) := by
  simp only [p2]
  after_results_simp
  rfl

set_option maxRecDepth 8192 in
set_option maxHeartbeats 2000000 in
/-- Layer 1. -/
theorem p3_v33 (X : Valuation τ sig (Elt F)) :
    after p3 X (main_v33 : DevRef τ sig) = selu S100000x128 bcast_S_S100000x128 (X (main_v32 : DevRef τ sig)) := by
  simp only [p3]
  after_results_simp
  rfl

set_option maxRecDepth 8192 in
set_option maxHeartbeats 2000000 in
/-- Layer 2's scattered sum. -/
theorem p4_v46 (X : Valuation τ sig (Elt F)) :
    after p4 X (main_v46 : DevRef τ sig) = scatterSum (X (main_v33 : DevRef τ sig)) (X (main_v9 : DevRef τ sig)) (X (main_arg2 : DevRef τ sig)) (X (main_arg3 : DevRef τ sig)) := by
  simp only [p4]
  after_results_simp
  rfl

set_option maxRecDepth 8192 in
set_option maxHeartbeats 2000000 in
/-- Layer 2 before its selu. -/
theorem p5_v53 (X : Valuation τ sig (Elt F)) :
    after p5 X (main_v53 : DevRef τ sig) = denseNodes (mulf (X (main_v46 : DevRef τ sig)) (colBcast (X (main_v12 : DevRef τ sig)))) (X (main_arg7 : DevRef τ sig)) (X (main_arg8 : DevRef τ sig)) := by
  simp only [p5]
  after_results_simp
  rfl

set_option maxRecDepth 8192 in
set_option maxHeartbeats 2000000 in
/-- Layer 2. -/
theorem p6_v54 (X : Valuation τ sig (Elt F)) :
    after p6 X (main_v54 : DevRef τ sig) = selu S100000x128 bcast_S_S100000x128 (X (main_v53 : DevRef τ sig)) := by
  simp only [p6]
  after_results_simp
  rfl

set_option maxRecDepth 8192 in
set_option maxHeartbeats 2000000 in
/-- Layer 3: the node features. -/
theorem p7_v74 (X : Valuation τ sig (Elt F)) :
    after p7 X (main_v74 : DevRef τ sig) = denseNodes (aggregate (X (main_v54 : DevRef τ sig)) (X (main_v9 : DevRef τ sig)) (X (main_v12 : DevRef τ sig)) (X (main_arg2 : DevRef τ sig)) (X (main_arg3 : DevRef τ sig))) (X (main_arg9 : DevRef τ sig)) (X (main_arg10 : DevRef τ sig)) := by
  simp only [p7]
  after_results_simp
  rfl

set_option maxRecDepth 8192 in
set_option maxHeartbeats 2000000 in
/-- The head's first dense map of the readout. -/
theorem p8_v90 (X : Valuation τ sig (Elt F)) :
    after p8 X (main_v90 : DevRef τ sig) = dense1 (readout (X (main_v74 : DevRef τ sig)) (X (main_arg4 : DevRef τ sig)) (X (main_arg1 : DevRef τ sig))) (X (main_arg11 : DevRef τ sig)) (X (main_arg12 : DevRef τ sig)) := by
  simp only [p8]
  after_results_simp
  rfl

set_option maxRecDepth 8192 in
set_option maxHeartbeats 2000000 in
/-- Its selu. -/
theorem p9_v91 (X : Valuation τ sig (Elt F)) :
    after p9 X (main_v91 : DevRef τ sig) = selu S512x256 bcast_S_S512x256 (X (main_v90 : DevRef τ sig)) := by
  simp only [p9]
  after_results_simp
  rfl

set_option maxRecDepth 8192 in
set_option maxHeartbeats 2000000 in
/-- The head's second dense map. -/
theorem p10_v95 (X : Valuation τ sig (Elt F)) :
    after p10 X (main_v95 : DevRef τ sig) = dense2 (X (main_v91 : DevRef τ sig)) (X (main_arg13 : DevRef τ sig)) (X (main_arg14 : DevRef τ sig)) := by
  simp only [p10]
  after_results_simp
  rfl

set_option maxRecDepth 8192 in
set_option maxHeartbeats 2000000 in
/-- Its selu. -/
theorem p11_v96 (X : Valuation τ sig (Elt F)) :
    after p11 X (main_v96 : DevRef τ sig) = selu S512x128 bcast_S_S512x128 (X (main_v95 : DevRef τ sig)) := by
  simp only [p11]
  after_results_simp
  rfl

set_option maxRecDepth 8192 in
set_option maxHeartbeats 2000000 in
/-- The head's last product. -/
theorem p12_v97 (X : Valuation τ sig (Elt F)) :
    after p12 X (main_v97 : DevRef τ sig) = Host.dotGeneral dot_S512x128_S128x1_S512x1_1_0_0_1_n_n none (X (main_v96 : DevRef τ sig)) (X (main_arg15 : DevRef τ sig)) := by
  simp only [p12]
  after_results_simp

set_option maxRecDepth 8192 in
set_option maxHeartbeats 2000000 in
/-- The last bias, broadcast along the graphs. -/
theorem p12_v99 (X : Valuation τ sig (Elt F)) :
    after p12 X (main_v99 : DevRef τ sig) = broadcastInDim S512x1 ![0, 1] bcast_S1x1_S512x1_0_1 (broadcastInDim S1x1 ![1] bcast_S1_S1x1_1 (X (main_arg16 : DevRef τ sig))) := by
  simp only [p12]
  after_results_simp

set_option maxRecDepth 8192 in
set_option maxHeartbeats 2000000 in
/-- The result: the bias added, the column flattened. -/
theorem p13_v101 (X : Valuation τ sig (Elt F)) :
    after p13 X (main_v101 : DevRef τ sig) = flatten (addf (X (main_v97 : DevRef τ sig)) (X (main_v99 : DevRef τ sig))) := by
  simp only [p13]
  after_results_simp
  rfl

/-! ## The contents after the first k pieces -/

/-- The contents after the first 1 piece. -/
def W1 (V : Valuation τ sig (Elt F)) : Valuation τ sig (Elt F) := after p1 V
theorem W1_keep (V : Valuation τ sig (Elt F)) (r : Ref sig .tc) (h : r ∉ p1_W) :
    W1 V (no_index (Proc.devRef .tc r)) = V (Proc.devRef .tc r) :=
  p1_keep _ r h
/-- The contents after the first 2 pieces. -/
def W2 (V : Valuation τ sig (Elt F)) : Valuation τ sig (Elt F) := after p2 (W1 V)
theorem W2_keep (V : Valuation τ sig (Elt F)) (r : Ref sig .tc) (h : r ∉ p2_W) :
    W2 V (no_index (Proc.devRef .tc r)) = W1 V (Proc.devRef .tc r) :=
  p2_keep _ r h
/-- The contents after the first 3 pieces. -/
def W3 (V : Valuation τ sig (Elt F)) : Valuation τ sig (Elt F) := after p3 (W2 V)
theorem W3_keep (V : Valuation τ sig (Elt F)) (r : Ref sig .tc) (h : r ∉ p3_W) :
    W3 V (no_index (Proc.devRef .tc r)) = W2 V (Proc.devRef .tc r) :=
  p3_keep _ r h
/-- The contents after the first 4 pieces. -/
def W4 (V : Valuation τ sig (Elt F)) : Valuation τ sig (Elt F) := after p4 (W3 V)
theorem W4_keep (V : Valuation τ sig (Elt F)) (r : Ref sig .tc) (h : r ∉ p4_W) :
    W4 V (no_index (Proc.devRef .tc r)) = W3 V (Proc.devRef .tc r) :=
  p4_keep _ r h
/-- The contents after the first 5 pieces. -/
def W5 (V : Valuation τ sig (Elt F)) : Valuation τ sig (Elt F) := after p5 (W4 V)
theorem W5_keep (V : Valuation τ sig (Elt F)) (r : Ref sig .tc) (h : r ∉ p5_W) :
    W5 V (no_index (Proc.devRef .tc r)) = W4 V (Proc.devRef .tc r) :=
  p5_keep _ r h
/-- The contents after the first 6 pieces. -/
def W6 (V : Valuation τ sig (Elt F)) : Valuation τ sig (Elt F) := after p6 (W5 V)
theorem W6_keep (V : Valuation τ sig (Elt F)) (r : Ref sig .tc) (h : r ∉ p6_W) :
    W6 V (no_index (Proc.devRef .tc r)) = W5 V (Proc.devRef .tc r) :=
  p6_keep _ r h
/-- The contents after the first 7 pieces. -/
def W7 (V : Valuation τ sig (Elt F)) : Valuation τ sig (Elt F) := after p7 (W6 V)
theorem W7_keep (V : Valuation τ sig (Elt F)) (r : Ref sig .tc) (h : r ∉ p7_W) :
    W7 V (no_index (Proc.devRef .tc r)) = W6 V (Proc.devRef .tc r) :=
  p7_keep _ r h
/-- The contents after the first 8 pieces. -/
def W8 (V : Valuation τ sig (Elt F)) : Valuation τ sig (Elt F) := after p8 (W7 V)
theorem W8_keep (V : Valuation τ sig (Elt F)) (r : Ref sig .tc) (h : r ∉ p8_W) :
    W8 V (no_index (Proc.devRef .tc r)) = W7 V (Proc.devRef .tc r) :=
  p8_keep _ r h
/-- The contents after the first 9 pieces. -/
def W9 (V : Valuation τ sig (Elt F)) : Valuation τ sig (Elt F) := after p9 (W8 V)
theorem W9_keep (V : Valuation τ sig (Elt F)) (r : Ref sig .tc) (h : r ∉ p9_W) :
    W9 V (no_index (Proc.devRef .tc r)) = W8 V (Proc.devRef .tc r) :=
  p9_keep _ r h
/-- The contents after the first 10 pieces. -/
def W10 (V : Valuation τ sig (Elt F)) : Valuation τ sig (Elt F) := after p10 (W9 V)
theorem W10_keep (V : Valuation τ sig (Elt F)) (r : Ref sig .tc) (h : r ∉ p10_W) :
    W10 V (no_index (Proc.devRef .tc r)) = W9 V (Proc.devRef .tc r) :=
  p10_keep _ r h
/-- The contents after the first 11 pieces. -/
def W11 (V : Valuation τ sig (Elt F)) : Valuation τ sig (Elt F) := after p11 (W10 V)
theorem W11_keep (V : Valuation τ sig (Elt F)) (r : Ref sig .tc) (h : r ∉ p11_W) :
    W11 V (no_index (Proc.devRef .tc r)) = W10 V (Proc.devRef .tc r) :=
  p11_keep _ r h
/-- The contents after the first 12 pieces. -/
def W12 (V : Valuation τ sig (Elt F)) : Valuation τ sig (Elt F) := after p12 (W11 V)
theorem W12_keep (V : Valuation τ sig (Elt F)) (r : Ref sig .tc) (h : r ∉ p12_W) :
    W12 V (no_index (Proc.devRef .tc r)) = W11 V (Proc.devRef .tc r) :=
  p12_keep _ r h
/-- The contents after the first 13 pieces. -/
def W13 (V : Valuation τ sig (Elt F)) : Valuation τ sig (Elt F) := after p13 (W12 V)
theorem W13_keep (V : Valuation τ sig (Elt F)) (r : Ref sig .tc) (h : r ∉ p13_W) :
    W13 V (no_index (Proc.devRef .tc r)) = W12 V (Proc.devRef .tc r) :=
  p13_keep _ r h

theorem W1_v9 (V : Valuation τ sig (Elt F)) :
    W1 V (no_index (main_v9 : DevRef τ sig)) = degNorm (V (main_arg2 : DevRef τ sig)) :=
  p1_v9 _
theorem W1_v12 (V : Valuation τ sig (Elt F)) :
    W1 V (no_index (main_v12 : DevRef τ sig)) = degNorm (V (main_arg3 : DevRef τ sig)) :=
  p1_v12 _
theorem W2_v32 (V : Valuation τ sig (Elt F)) :
    W2 V (no_index (main_v32 : DevRef τ sig)) = denseNodes (aggregate (W1 V (main_arg0 : DevRef τ sig)) (W1 V (main_v9 : DevRef τ sig)) (W1 V (main_v12 : DevRef τ sig)) (W1 V (main_arg2 : DevRef τ sig)) (W1 V (main_arg3 : DevRef τ sig))) (W1 V (main_arg5 : DevRef τ sig)) (W1 V (main_arg6 : DevRef τ sig)) :=
  p2_v32 _
theorem W3_v33 (V : Valuation τ sig (Elt F)) :
    W3 V (no_index (main_v33 : DevRef τ sig)) = selu S100000x128 bcast_S_S100000x128 (W2 V (main_v32 : DevRef τ sig)) :=
  p3_v33 _
theorem W4_v46 (V : Valuation τ sig (Elt F)) :
    W4 V (no_index (main_v46 : DevRef τ sig)) = scatterSum (W3 V (main_v33 : DevRef τ sig)) (W3 V (main_v9 : DevRef τ sig)) (W3 V (main_arg2 : DevRef τ sig)) (W3 V (main_arg3 : DevRef τ sig)) :=
  p4_v46 _
theorem W5_v53 (V : Valuation τ sig (Elt F)) :
    W5 V (no_index (main_v53 : DevRef τ sig)) = denseNodes (mulf (W4 V (main_v46 : DevRef τ sig)) (colBcast (W4 V (main_v12 : DevRef τ sig)))) (W4 V (main_arg7 : DevRef τ sig)) (W4 V (main_arg8 : DevRef τ sig)) :=
  p5_v53 _
theorem W6_v54 (V : Valuation τ sig (Elt F)) :
    W6 V (no_index (main_v54 : DevRef τ sig)) = selu S100000x128 bcast_S_S100000x128 (W5 V (main_v53 : DevRef τ sig)) :=
  p6_v54 _
theorem W7_v74 (V : Valuation τ sig (Elt F)) :
    W7 V (no_index (main_v74 : DevRef τ sig)) = denseNodes (aggregate (W6 V (main_v54 : DevRef τ sig)) (W6 V (main_v9 : DevRef τ sig)) (W6 V (main_v12 : DevRef τ sig)) (W6 V (main_arg2 : DevRef τ sig)) (W6 V (main_arg3 : DevRef τ sig))) (W6 V (main_arg9 : DevRef τ sig)) (W6 V (main_arg10 : DevRef τ sig)) :=
  p7_v74 _
theorem W8_v90 (V : Valuation τ sig (Elt F)) :
    W8 V (no_index (main_v90 : DevRef τ sig)) = dense1 (readout (W7 V (main_v74 : DevRef τ sig)) (W7 V (main_arg4 : DevRef τ sig)) (W7 V (main_arg1 : DevRef τ sig))) (W7 V (main_arg11 : DevRef τ sig)) (W7 V (main_arg12 : DevRef τ sig)) :=
  p8_v90 _
theorem W9_v91 (V : Valuation τ sig (Elt F)) :
    W9 V (no_index (main_v91 : DevRef τ sig)) = selu S512x256 bcast_S_S512x256 (W8 V (main_v90 : DevRef τ sig)) :=
  p9_v91 _
theorem W10_v95 (V : Valuation τ sig (Elt F)) :
    W10 V (no_index (main_v95 : DevRef τ sig)) = dense2 (W9 V (main_v91 : DevRef τ sig)) (W9 V (main_arg13 : DevRef τ sig)) (W9 V (main_arg14 : DevRef τ sig)) :=
  p10_v95 _
theorem W11_v96 (V : Valuation τ sig (Elt F)) :
    W11 V (no_index (main_v96 : DevRef τ sig)) = selu S512x128 bcast_S_S512x128 (W10 V (main_v95 : DevRef τ sig)) :=
  p11_v96 _
theorem W12_v97 (V : Valuation τ sig (Elt F)) :
    W12 V (no_index (main_v97 : DevRef τ sig)) = Host.dotGeneral dot_S512x128_S128x1_S512x1_1_0_0_1_n_n none (W11 V (main_v96 : DevRef τ sig)) (W11 V (main_arg15 : DevRef τ sig)) :=
  p12_v97 _
theorem W12_v99 (V : Valuation τ sig (Elt F)) :
    W12 V (no_index (main_v99 : DevRef τ sig)) = broadcastInDim S512x1 ![0, 1] bcast_S1x1_S512x1_0_1 (broadcastInDim S1x1 ![1] bcast_S1_S1x1_1 (W11 V (main_arg16 : DevRef τ sig))) :=
  p12_v99 _
theorem W13_v101 (V : Valuation τ sig (Elt F)) :
    W13 V (no_index (main_v101 : DevRef τ sig)) = flatten (addf (W12 V (main_v97 : DevRef τ sig)) (W12 V (main_v99 : DevRef τ sig))) :=
  p13_v101 _

/-- The line's fold is the thirteen pieces' folds in turn. -/
theorem after_ops (V : Valuation τ sig (Elt F)) : after ops V = W13 V := by
  simp only [ops, ops0, ops1, ops2, after_append]
  rfl

/-! ## The result and the arguments -/

set_option maxRecDepth 8192 in
set_option maxHeartbeats 2000000 in
/-- The result buffer ends at the network of the arguments' contents: each stage's output read back through the
    pieces to the stage before, the arguments and the two norms kept by every piece that does not write them. -/
theorem out_eq (V : Valuation τ sig (Elt F)) :
    after ops V (main_v101 : DevRef τ sig)
      = network (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  rw [after_ops]
  simp (disch := decide) only [W1_v9, W1_v12, W2_v32, W3_v33, W4_v46, W5_v53, W6_v54, W7_v74, W8_v90, W9_v91, W10_v95, W11_v96, W12_v97, W12_v99, W13_v101, W1_keep, W2_keep, W3_keep, W4_keep, W5_keep, W6_keep, W7_keep, W8_keep, W9_keep, W10_keep, W11_keep, W12_keep, W13_keep]
  rfl

theorem arg0_eq (V : Valuation τ sig (Elt F)) : after ops V (main_arg0 : DevRef τ sig) = V (main_arg0 : DevRef τ sig) := by
  rw [after_ops]; simp (disch := decide) only [W1_keep, W2_keep, W3_keep, W4_keep, W5_keep, W6_keep, W7_keep, W8_keep, W9_keep, W10_keep, W11_keep, W12_keep, W13_keep]
theorem arg1_eq (V : Valuation τ sig (Elt F)) : after ops V (main_arg1 : DevRef τ sig) = V (main_arg1 : DevRef τ sig) := by
  rw [after_ops]; simp (disch := decide) only [W1_keep, W2_keep, W3_keep, W4_keep, W5_keep, W6_keep, W7_keep, W8_keep, W9_keep, W10_keep, W11_keep, W12_keep, W13_keep]
theorem arg2_eq (V : Valuation τ sig (Elt F)) : after ops V (main_arg2 : DevRef τ sig) = V (main_arg2 : DevRef τ sig) := by
  rw [after_ops]; simp (disch := decide) only [W1_keep, W2_keep, W3_keep, W4_keep, W5_keep, W6_keep, W7_keep, W8_keep, W9_keep, W10_keep, W11_keep, W12_keep, W13_keep]
theorem arg3_eq (V : Valuation τ sig (Elt F)) : after ops V (main_arg3 : DevRef τ sig) = V (main_arg3 : DevRef τ sig) := by
  rw [after_ops]; simp (disch := decide) only [W1_keep, W2_keep, W3_keep, W4_keep, W5_keep, W6_keep, W7_keep, W8_keep, W9_keep, W10_keep, W11_keep, W12_keep, W13_keep]
theorem arg4_eq (V : Valuation τ sig (Elt F)) : after ops V (main_arg4 : DevRef τ sig) = V (main_arg4 : DevRef τ sig) := by
  rw [after_ops]; simp (disch := decide) only [W1_keep, W2_keep, W3_keep, W4_keep, W5_keep, W6_keep, W7_keep, W8_keep, W9_keep, W10_keep, W11_keep, W12_keep, W13_keep]
theorem arg5_eq (V : Valuation τ sig (Elt F)) : after ops V (main_arg5 : DevRef τ sig) = V (main_arg5 : DevRef τ sig) := by
  rw [after_ops]; simp (disch := decide) only [W1_keep, W2_keep, W3_keep, W4_keep, W5_keep, W6_keep, W7_keep, W8_keep, W9_keep, W10_keep, W11_keep, W12_keep, W13_keep]
theorem arg6_eq (V : Valuation τ sig (Elt F)) : after ops V (main_arg6 : DevRef τ sig) = V (main_arg6 : DevRef τ sig) := by
  rw [after_ops]; simp (disch := decide) only [W1_keep, W2_keep, W3_keep, W4_keep, W5_keep, W6_keep, W7_keep, W8_keep, W9_keep, W10_keep, W11_keep, W12_keep, W13_keep]
theorem arg7_eq (V : Valuation τ sig (Elt F)) : after ops V (main_arg7 : DevRef τ sig) = V (main_arg7 : DevRef τ sig) := by
  rw [after_ops]; simp (disch := decide) only [W1_keep, W2_keep, W3_keep, W4_keep, W5_keep, W6_keep, W7_keep, W8_keep, W9_keep, W10_keep, W11_keep, W12_keep, W13_keep]
theorem arg8_eq (V : Valuation τ sig (Elt F)) : after ops V (main_arg8 : DevRef τ sig) = V (main_arg8 : DevRef τ sig) := by
  rw [after_ops]; simp (disch := decide) only [W1_keep, W2_keep, W3_keep, W4_keep, W5_keep, W6_keep, W7_keep, W8_keep, W9_keep, W10_keep, W11_keep, W12_keep, W13_keep]
theorem arg9_eq (V : Valuation τ sig (Elt F)) : after ops V (main_arg9 : DevRef τ sig) = V (main_arg9 : DevRef τ sig) := by
  rw [after_ops]; simp (disch := decide) only [W1_keep, W2_keep, W3_keep, W4_keep, W5_keep, W6_keep, W7_keep, W8_keep, W9_keep, W10_keep, W11_keep, W12_keep, W13_keep]
theorem arg10_eq (V : Valuation τ sig (Elt F)) : after ops V (main_arg10 : DevRef τ sig) = V (main_arg10 : DevRef τ sig) := by
  rw [after_ops]; simp (disch := decide) only [W1_keep, W2_keep, W3_keep, W4_keep, W5_keep, W6_keep, W7_keep, W8_keep, W9_keep, W10_keep, W11_keep, W12_keep, W13_keep]
theorem arg11_eq (V : Valuation τ sig (Elt F)) : after ops V (main_arg11 : DevRef τ sig) = V (main_arg11 : DevRef τ sig) := by
  rw [after_ops]; simp (disch := decide) only [W1_keep, W2_keep, W3_keep, W4_keep, W5_keep, W6_keep, W7_keep, W8_keep, W9_keep, W10_keep, W11_keep, W12_keep, W13_keep]
theorem arg12_eq (V : Valuation τ sig (Elt F)) : after ops V (main_arg12 : DevRef τ sig) = V (main_arg12 : DevRef τ sig) := by
  rw [after_ops]; simp (disch := decide) only [W1_keep, W2_keep, W3_keep, W4_keep, W5_keep, W6_keep, W7_keep, W8_keep, W9_keep, W10_keep, W11_keep, W12_keep, W13_keep]
theorem arg13_eq (V : Valuation τ sig (Elt F)) : after ops V (main_arg13 : DevRef τ sig) = V (main_arg13 : DevRef τ sig) := by
  rw [after_ops]; simp (disch := decide) only [W1_keep, W2_keep, W3_keep, W4_keep, W5_keep, W6_keep, W7_keep, W8_keep, W9_keep, W10_keep, W11_keep, W12_keep, W13_keep]
theorem arg14_eq (V : Valuation τ sig (Elt F)) : after ops V (main_arg14 : DevRef τ sig) = V (main_arg14 : DevRef τ sig) := by
  rw [after_ops]; simp (disch := decide) only [W1_keep, W2_keep, W3_keep, W4_keep, W5_keep, W6_keep, W7_keep, W8_keep, W9_keep, W10_keep, W11_keep, W12_keep, W13_keep]
theorem arg15_eq (V : Valuation τ sig (Elt F)) : after ops V (main_arg15 : DevRef τ sig) = V (main_arg15 : DevRef τ sig) := by
  rw [after_ops]; simp (disch := decide) only [W1_keep, W2_keep, W3_keep, W4_keep, W5_keep, W6_keep, W7_keep, W8_keep, W9_keep, W10_keep, W11_keep, W12_keep, W13_keep]
theorem arg16_eq (V : Valuation τ sig (Elt F)) : after ops V (main_arg16 : DevRef τ sig) = V (main_arg16 : DevRef τ sig) := by
  rw [after_ops]; simp (disch := decide) only [W1_keep, W2_keep, W3_keep, W4_keep, W5_keep, W6_keep, W7_keep, W8_keep, W9_keep, W10_keep, W11_keep, W12_keep, W13_keep]

/-! ## The run -/

/-- At the compiled mesh, for any float values, from any memory with zero counters: every weakly fair execution of the
    reference terminates; the result buffer ends at the network of the arguments' launch contents, and the arguments
    end as they started. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v101) = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono
    (fun _ h c => ⟨(h c main_v101).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _)⟩)
    (run_main m ρ)

end Cert.ReferenceIdeal.HandRun

end
-- ==== Proof.lean ====
/-
  The certificate's claims.

  Both programs compute one graph network (Proof/Spec.lean): three graph convolutions
  D_dst^(-1/2) A D_src^(-1/2) X W + b, selu after the first two, the per-graph mean of the node rows beside the graph
  features, and a three-layer head.  The kernel runs the aggregations, the degree norms and the readout as host
  operations — the same ones, operation for operation, as the reference — and the dense layers in four regions: twenty
  row blocks per convolution, one block for the head.  On the extended reals a row block of a dense layer is the same
  rows of the whole layer, a matrix product into a zero accumulator is the host's general dot, a change of float format
  is the identity, and the kernel's selu (exp z − 1 on the non-positive side) is the reference's (expm1 of z there):
  so the kernel's result (Proof/KernelValue.lean) and the reference's (its run, Proof/RefRun.lean) are the same network
  of the argument arrays.  No law used needs finiteness: the precondition is not opened.
  The frames are the generated ones (the reference's: its run with the result dropped); the idealization rewrote nothing.
-/
import proofs.«134255_j26018911879219_1_alg».proof.Defs
import proofs.«134255_j26018911879219_1_alg».proof.Proof.Gen.Kernel
import proofs.«134255_j26018911879219_1_alg».proof.Proof.Gen.Kernel.Frame
import proofs.«134255_j26018911879219_1_alg».proof.Proof.Gen.KernelIdeal
import proofs.«134255_j26018911879219_1_alg».proof.Proof.Gen.KernelIdeal.Frame
import proofs.«134255_j26018911879219_1_alg».proof.Proof.Gen.ReferenceIdeal
import proofs.«134255_j26018911879219_1_alg».proof.Proof.Gen.Pre_finite_inputs
import proofs.«134255_j26018911879219_1_alg».proof.Proof.KernelValue
import proofs.«134255_j26018911879219_1_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's arguments end as launched: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both programs end at the network of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩) (Cert.ReferenceIdeal.HandRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
